-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x512 : Shape := ⟨2, ![4000, 512]⟩
abbrev S4000x16 : Shape := ⟨2, ![4000, 16]⟩
abbrev S3300000x16 : Shape := ⟨2, ![3300000, 16]⟩
abbrev S100000x7 : Shape := ⟨2, ![100000, 7]⟩
abbrev S4000x7 : Shape := ⟨2, ![4000, 7]⟩
abbrev S1x16 : Shape := ⟨2, ![1, 16]⟩
abbrev S3300000x7 : Shape := ⟨2, ![3300000, 7]⟩
abbrev S1x7 : Shape := ⟨2, ![1, 7]⟩
abbrev S4000 : Shape := ⟨1, ![4000]⟩
abbrev S4000x1 : Shape := ⟨2, ![4000, 1]⟩

abbrev nBuf : Space → Nat
  | .hbm => 81
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S100000x7, .f32⟩
  | .hbm, ⟨64, _⟩ => ⟨S_, .i32⟩
  | .hbm, ⟨65, _⟩ => ⟨S3300000, .i32⟩
  | .hbm, ⟨66, _⟩ => ⟨S3300000, .i1⟩
  | .hbm, ⟨67, _⟩ => ⟨S_, .i32⟩
  | .hbm, ⟨68, _⟩ => ⟨S3300000, .i32⟩
  | .hbm, ⟨69, _⟩ => ⟨S3300000, .i32⟩
  | .hbm, ⟨70, _⟩ => ⟨S3300000, .i32⟩
  | .hbm, ⟨71, _⟩ => ⟨S3300000x1, .i32⟩
  | .hbm, ⟨72, _⟩ => ⟨S3300000x7, .f32⟩
  | .hbm, ⟨73, _⟩ => ⟨S3300000x1, .f32⟩
  | .hbm, ⟨74, _⟩ => ⟨S3300000x7, .f32⟩
  | .hbm, ⟨75, _⟩ => ⟨S3300000x7, .f32⟩
  | .hbm, ⟨76, _⟩ => ⟨S_, .f32⟩
  | .hbm, ⟨77, _⟩ => ⟨S100000x7, .f32⟩
  | .hbm, ⟨78, _⟩ => ⟨S3300000x1, .i32⟩
  | .hbm, ⟨79, _⟩ => ⟨S100000x7, .f32⟩
  | .hbm, ⟨80, _⟩ => ⟨S100000x7, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S16, .f32⟩
  | .local _ .vmem, ⟨8, _⟩ => ⟨S16x7, .f32⟩
  | .local _ .vmem, ⟨9, _⟩ => ⟨S4000x7, .f32⟩
  | .local _ .vmem, ⟨10, _⟩ => ⟨S4000x7, .f32⟩
  | .local _ .vmem, ⟨11, _⟩ => ⟨S4000x7, .f32⟩
  | .local _ .vmem, ⟨12, _⟩ => ⟨S4000x7, .f32⟩
  | .local _ .vmem, ⟨13, _⟩ => ⟨S7, .f32⟩
  | .local _ .vmem, ⟨14, _⟩ => ⟨S4000x7, .f32⟩
  | .local _ .vmem, ⟨15, _⟩ => ⟨S4000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x7 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S4000x16_S4000x16 : S4000x16.ShapeCasts S4000x16
  inb_S16_S16_0 : ∀ a, (![0] : Fin 1 → Nat) a + S16.size a ≤ S16.size a
  h_S16 : 0 < S16.numel
  shapeCasts_S16_S1x16 : S16.ShapeCasts S1x16
  broadcasts_S1x16_S4000x16 : S1x16.Broadcasts S4000x16
  inb_S16x7_S16x7_0_0 : ∀ a, (![0, 0] : Fin 2 → Nat) a + S16x7.size a ≤ S16x7.size a
  h_S16x7 : 0 < S16x7.numel
  inb_S4000x7_S4000x7_0_0 : ∀ a, (![0, 0] : Fin 2 → Nat) a + S4000x7.size a ≤ S4000x7.size a
  h_S4000x7 : 0 < S4000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  shapeCasts_S4000x7_S4000x7 : S4000x7.ShapeCasts S4000x7
  inb_S7_S7_0 : ∀ a, (![0] : Fin 1 → Nat) a + S7.size a ≤ S7.size a
  h_S7 : 0 < S7.numel
  shapeCasts_S7_S1x7 : S7.ShapeCasts S1x7
  broadcasts_S1x7_S4000x7 : S1x7.Broadcasts S4000x7
  reduces_S4000x7_S4000 : S4000x7.Reduces [1] S4000
  shapeCasts_S4000_S4000x1 : S4000.ShapeCasts S4000x1
  broadcasts_S4000x1_S4000x7 : S4000x1.Broadcasts S4000x7
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x7_S4000x7_1_0_0_1_n_n_wf : DotDims.WF S4000x16 S16x7 S4000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16.size a ≤ S16.size a
  hwx1_1 : ∀ i : grid1.Coords, EltTy.bits .f32 = 32 ∨ (Rect.block (s := S16) S16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x7.size a ≤ S16x7.size a
  hwx1_2 : ∀ i : grid1.Coords, EltTy.bits .f32 = 32 ∨ (Rect.block (s := S16x7) S16x7.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x7.size a ≤ S100000x7.size a
  hwx1_3 : ∀ i : grid1.Coords, EltTy.bits .f32 = 32 ∨ (Rect.block (s := S100000x7) S4000x7.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x7.size a ≤ S100000x7.size a
  hwx2_0 : ∀ i : grid2.Coords, EltTy.bits .f32 = 32 ∨ (Rect.block (s := S100000x7) S4000x7.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S7.size a ≤ S7.size a
  hwx2_1 : ∀ i : grid2.Coords, EltTy.bits .f32 = 32 ∨ (Rect.block (s := S7) S7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x7.size a ≤ S100000x7.size a
  hwx2_2 : ∀ i : grid2.Coords, EltTy.bits .f32 = 32 ∨ (Rect.block (s := S100000x7) S4000x7.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x7_S4000x7_1_0_0_1_n_n : DotDims S4000x16 S16x7 S4000x7 where
  lhsContracting := [1]
  rhsContracting := [0]
  lhsNonContracting := [0]
  rhsNonContracting := [1]
  lhsBatch := []
  rhsBatch := []
  wf := dot_S4000x16_S16x7_S4000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S4000x7.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S4000x7.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S4000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x7, .f32⟩
  | .hbm, ⟨79, _⟩ => ⟨S3300000x1, .f32⟩
  | .hbm, ⟨80, _⟩ => ⟨S3300000x7, .f32⟩
  | .hbm, ⟨81, _⟩ => ⟨S3300000x7, .f32⟩
  | .hbm, ⟨82, _⟩ => ⟨S_, .f32⟩
  | .hbm, ⟨83, _⟩ => ⟨S100000x7, .f32⟩
  | .hbm, ⟨84, _⟩ => ⟨S3300000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x7, .f32⟩
  | .hbm, ⟨96, _⟩ => ⟨S100000x7, .f32⟩
  | .hbm, ⟨97, _⟩ => ⟨S100000x7, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x7, .f32⟩
  | .hbm, ⟨103, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KernelRun.lean ====
/-
  The idealized kernel program's run, with its result named.

  The program is three tiled regions among stretches of host operations. The buffer contents at each boundary are a
  fold from the launch memory: a host stretch applies its operations in order, a region leaves its arrays at what the
  write-backs of its grid points leave and every other buffer as it was. Every weakly fair execution terminates, nothing
  faulting, with every unscoped buffer at the last boundary's contents; so the result array ends at the last
  boundary's contents of its buffer, and the arguments end as launched.
-/
import proofs.«140936_j44255343018662_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    boundary's contents of its buffer and each argument array as launched. -/
theorem run_result : θ_run defs (onTc (τ := τ) (main (F := F))) ⟨m, fun _ => 0, ρ⟩ (fun r => ∀ c : Dev nD,
      r.2.mem ((c.tc : Thread nD τ).loc main_v58) = W8 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v58 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Hand

end
-- ==== Proof.Spec.lean ====
/-
  The two-layer graph convolution as one function of the argument arrays.

  Edges: the given E = 3200000 (source, target) pairs followed by one self loop per node, N = 100000 nodes. The degree of a
  node counts the edges that point at it; `dinv` is its inverse square root where the degree is positive and 0 elsewhere;
  an edge's weight is `dinv` at its source times `dinv` at its target (negative node numbers wrap round by N, as a gather's
  index does). One propagation gathers a node array's rows at the edges' sources, scales each by the edge's weight and adds
  it into the row of the edge's target. The network is: x·W₁ propagated, plus b₁, floored at 0, times W₂, propagated, plus
  b₂, and the row-wise log-softmax of that: each row minus its maximum, minus the logarithm of the sum of the exponentials.
  Everything is stated with the host operations of the reference program, over any float instance.
-/
import proofs.«140936_j44255343018662_1_alg».proof.Proof.Gen.ReferenceIdeal

noncomputable section

namespace Cert.ReferenceIdeal.Spec

open Cert.ReferenceIdeal Cert.ReferenceIdeal.Gen Idealize.ShloMosaic

variable {F : FTy → Type} [FloatOps F]

/-- The node numbers 0 … N−1: the self loops' ends. -/
def nodes : (⟨S100000, .i32⟩ : BufTy).Contents (Elt F) := iotaInDim S100000 32 0

/-- The edges' sources: row 0 of the edge array, then the self loops. -/
def src (x1 : (⟨S2x3200000, .i32⟩ : BufTy).Contents (Elt F)) : (⟨S3300000, .i32⟩ : BufTy).Contents (Elt F) :=
  concatenate S3300000 0 [⟨S3200000, shapeCast S3200000 (extractStridedSlice S1x3200000 ![0, 0] x1 slices_S2x3200000_S1x3200000_0_0) shapeCasts_S1x3200000_S3200000⟩, ⟨S100000, nodes (F := F)⟩] concatenates_S3200000_S100000_S3300000_d0

/-- The edges' targets: row 1 of the edge array, then the self loops. -/
def dst (x1 : (⟨S2x3200000, .i32⟩ : BufTy).Contents (Elt F)) : (⟨S3300000, .i32⟩ : BufTy).Contents (Elt F) :=
  concatenate S3300000 0 [⟨S3200000, shapeCast S3200000 (extractStridedSlice S1x3200000 ![1, 0] x1 slices_S2x3200000_S1x3200000_1_0) shapeCasts_S1x3200000_S3200000⟩, ⟨S100000, nodes (F := F)⟩] concatenates_S3200000_S100000_S3300000_d0

/-- A per-edge array as one column. -/
def col {e : EltTy} (v : (⟨S3300000, e⟩ : BufTy).Contents (Elt F)) : (⟨S3300000x1, e⟩ : BufTy).Contents (Elt F) :=
  broadcastInDim S3300000x1 ![0] bcast_S3300000_S3300000x1_0 v

/-- Negative node numbers wrap round by N. -/
def wrap (v : (⟨S3300000, .i32⟩ : BufTy).Contents (Elt F)) : (⟨S3300000, .i32⟩ : BufTy).Contents (Elt F) :=
  select (cmpi .slt v (broadcastInDim S3300000 ![] bcast_S_S3300000 (constantI S_ 32 0#32)))
    (addi v (broadcastInDim S3300000 ![] bcast_S_S3300000 (constantI S_ 32 100000#32))) v

/-- The degree: one added at each edge's target. -/
def deg (x1 : (⟨S2x3200000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant (F := F) S_ .f32 0x00000000#32))
    (col (dst (F := F) x1))
    (broadcastInDim S3300000 ![] bcast_S_S3300000 (constant (F := F) S_ .f32 0x3F800000#32))

/-- The inverse square root of the degree where it is positive, 0 elsewhere. -/
def dinv (x1 : (⟨S2x3200000, .i32⟩ : BufTy).Contents (Elt F)) : (⟨S100000, .f32⟩ : BufTy).Contents (Elt F) :=
  select (cmpf .ogt (deg (F := F) x1) (broadcastInDim S100000 ![] bcast_S_S100000 (constant (F := F) S_ .f32 0x00000000#32)))
    (Host.rsqrt (deg (F := F) x1))
    (broadcastInDim S100000 ![] bcast_S_S100000 (constant (F := F) S_ .f32 0x00000000#32))

/-- An edge's weight: `dinv` at its source times `dinv` at its target. -/
def weight (x1 : (⟨S2x3200000, .i32⟩ : BufTy).Contents (Elt F)) : (⟨S3300000, .f32⟩ : BufTy).Contents (Elt F) :=
  mulf (Host.gather gather_S100000_S3300000x1_S3300000_n_0_n_n_0_1_1 (dinv (F := F) x1) (col (wrap (src (F := F) x1))))
    (Host.gather gather_S100000_S3300000x1_S3300000_n_0_n_n_0_1_1 (dinv (F := F) x1) (col (wrap (dst (F := F) x1))))

/-- One propagation of a node array of 16 columns. -/
def spread16 (h : (⟨S100000x16, .f32⟩ : BufTy).Contents (Elt F)) (x1 : (⟨S2x3200000, .i32⟩ : BufTy).Contents (Elt F)) : (⟨S100000x16, .f32⟩ : BufTy).Contents (Elt F) :=
  Host.scatterAdd scatter_S100000x16_S3300000x1_S3300000x16_1_0_0_1
    (broadcastInDim S100000x16 ![] bcast_S_S100000x16 (constant (F := F) S_ .f32 0x00000000#32))
    (col (dst (F := F) x1))
    (mulf (Host.gather gather_S100000x16_S3300000x1_S3300000x16_1_0_n_n_0_1_116 h (col (wrap (src (F := F) x1))))
      (broadcastInDim S3300000x16 ![0, 1] bcast_S3300000x1_S3300000x16_0_1 (col (weight (F := F) x1))))

/-- One propagation of a node array of 7 columns. -/
def spread7 (h : (⟨S100000x7, .f32⟩ : BufTy).Contents (Elt F)) (x1 : (⟨S2x3200000, .i32⟩ : BufTy).Contents (Elt F)) : (⟨S100000x7, .f32⟩ : BufTy).Contents (Elt F) :=
  Host.scatterAdd scatter_S100000x7_S3300000x1_S3300000x7_1_0_0_1
    (broadcastInDim S100000x7 ![] bcast_S_S100000x7 (constant (F := F) S_ .f32 0x00000000#32))
    (col (dst (F := F) x1))
    (mulf (Host.gather gather_S100000x7_S3300000x1_S3300000x7_1_0_n_n_0_1_17 h (col (wrap (src (F := F) x1))))
      (broadcastInDim S3300000x7 ![0, 1] bcast_S3300000x1_S3300000x7_0_1 (col (weight (F := F) x1))))

/-- The first layer's product x·W₁. -/
def mix1 (x0 : (⟨S100000x512, .f32⟩ : BufTy).Contents (Elt F)) (x2 : (⟨S512x16, .f32⟩ : BufTy).Contents (Elt F)) : (⟨S100000x16, .f32⟩ : BufTy).Contents (Elt F) :=
  Host.dotGeneral dot_S100000x512_S512x16_S100000x16_1_0_0_1_n_n none x0 x2

/-- Plus b₁ on every row, floored at 0. -/
def hidden (a : (⟨S100000x16, .f32⟩ : BufTy).Contents (Elt F)) (x3 : (⟨S16, .f32⟩ : BufTy).Contents (Elt F)) : (⟨S100000x16, .f32⟩ : BufTy).Contents (Elt F) :=
  maximumf (addf a (broadcastInDim S100000x16 ![0, 1] bcast_S1x16_S100000x16_0_1 (broadcastInDim S1x16 ![1] bcast_S16_S1x16_1 x3)))
    (broadcastInDim S100000x16 ![] bcast_S_S100000x16 (constant (F := F) S_ .f32 0x00000000#32))

/-- The second layer's product with W₂. -/
def mix2 (h : (⟨S100000x16, .f32⟩ : BufTy).Contents (Elt F)) (x4 : (⟨S16x7, .f32⟩ : BufTy).Contents (Elt F)) : (⟨S100000x7, .f32⟩ : BufTy).Contents (Elt F) :=
  Host.dotGeneral dot_S100000x16_S16x7_S100000x7_1_0_0_1_n_n none h x4

/-- Plus b₂ on every row. -/
def logits (a : (⟨S100000x7, .f32⟩ : BufTy).Contents (Elt F)) (x5 : (⟨S7, .f32⟩ : BufTy).Contents (Elt F)) : (⟨S100000x7, .f32⟩ : BufTy).Contents (Elt F) :=
  addf a (broadcastInDim S100000x7 ![0, 1] bcast_S1x7_S100000x7_0_1 (broadcastInDim S1x7 ![1] bcast_S7_S1x7_1 x5))

/-- A per-row value beside every entry of its row. -/
def beside (v : (⟨S100000x1, .f32⟩ : BufTy).Contents (Elt F)) : (⟨S100000x7, .f32⟩ : BufTy).Contents (Elt F) :=
  broadcastInDim S100000x7 ![0, 1] bcast_S100000x1_S100000x7_0_1 v

/-- A per-row vector as one column. -/
def column (v : (⟨S100000, .f32⟩ : BufTy).Contents (Elt F)) : (⟨S100000x1, .f32⟩ : BufTy).Contents (Elt F) :=
  broadcastInDim S100000x1 ![0] bcast_S100000_S100000x1_0 v

/-- Each row's maximum (taken once more against −∞, which changes nothing). -/
def rowMax (z : (⟨S100000x7, .f32⟩ : BufTy).Contents (Elt F)) : (⟨S100000, .f32⟩ : BufTy).Contents (Elt F) :=
  maximumf (broadcastInDim S100000 ![] bcast_S_S100000 (constant (F := F) S_ .f32 0xFF800000#32))
    (Host.reduce FloatOps.maximumf z (constant (F := F) S_ .f32 0xFF800000#32) reducesTo_S100000x7_S100000_d1 h_S_)

/-- Each row minus its maximum. -/
def shifted (z : (⟨S100000x7, .f32⟩ : BufTy).Contents (Elt F)) : (⟨S100000x7, .f32⟩ : BufTy).Contents (Elt F) :=
  subf z (beside (column (rowMax (F := F) z)))

/-- The row-wise log-softmax. -/
def logSoftmax (z : (⟨S100000x7, .f32⟩ : BufTy).Contents (Elt F)) : (⟨S100000x7, .f32⟩ : BufTy).Contents (Elt F) :=
  subf (shifted (F := F) z)
    (beside (Host.log (column (Host.reduceAdd (Host.exp (shifted (F := F) z)) (constant (F := F) S_ .f32 0x00000000#32) reducesTo_S100000x7_S100000_d1 h_S_))))

/-- The network's result. -/
def result (x0 : (⟨S100000x512, .f32⟩ : BufTy).Contents (Elt F)) (x1 : (⟨S2x3200000, .i32⟩ : BufTy).Contents (Elt F)) (x2 : (⟨S512x16, .f32⟩ : BufTy).Contents (Elt F))
    (x3 : (⟨S16, .f32⟩ : BufTy).Contents (Elt F)) (x4 : (⟨S16x7, .f32⟩ : BufTy).Contents (Elt F)) (x5 : (⟨S7, .f32⟩ : BufTy).Contents (Elt F)) : (⟨S100000x7, .f32⟩ : BufTy).Contents (Elt F) :=
  logSoftmax (logits (spread7 (mix2 (hidden (spread16 (mix1 x0 x2) x1) x3) x4) x1) x5)

end Cert.ReferenceIdeal.Spec

end
-- ==== Proof.KernelHost.lean ====
/-
  The kernel program's host stretches, each as a function of what it reads.

  The first three stretches (before the first region) build the edge lists, the degrees and the edge weights; the stretch
  between the first and second regions propagates the first region's result; the stretch between the second and third
  regions propagates the second region's result. They are the same host operations as the reference's, so each writes
  the corresponding function of Spec.lean of what it reads, and leaves every buffer it does not write as it was.
-/
import proofs.«140936_j44255343018662_1_alg».proof.Proof.Gen.KernelIdeal.Frame
import proofs.«140936_j44255343018662_1_alg».proof.Proof.Spec
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-! ## Before the first region -/

theorem K0_src (V : Valuation τ sig (Elt F)) : StableHlo.after hostOps0_2 (StableHlo.after hostOps0_1 (StableHlo.after hostOps0 V)) (Proc.devRef .tc main_v3) = Cert.ReferenceIdeal.Spec.src (F := F) (V (Proc.devRef .tc main_arg1)) := by
  dsimp only [hostOps0, hostOps0_1, hostOps0_2]
  after_results
  rfl
theorem K0_dst (V : Valuation τ sig (Elt F)) : StableHlo.after hostOps0_2 (StableHlo.after hostOps0_1 (StableHlo.after hostOps0 V)) (Proc.devRef .tc main_v6) = Cert.ReferenceIdeal.Spec.dst (F := F) (V (Proc.devRef .tc main_arg1)) := by
  dsimp only [hostOps0, hostOps0_1, hostOps0_2]
  after_results
  rfl
set_option maxHeartbeats 8000000 in
theorem K0_weight (V : Valuation τ sig (Elt F)) : StableHlo.after hostOps0_2 (StableHlo.after hostOps0_1 (StableHlo.after hostOps0 V)) (Proc.devRef .tc main_v29) = Cert.ReferenceIdeal.Spec.weight (F := F) (V (Proc.devRef .tc main_arg1)) := by
  dsimp only [hostOps0, hostOps0_1, hostOps0_2]
  after_results
  rfl
theorem K0_keep_arg0 (V : Valuation τ sig (Elt F)) : StableHlo.after hostOps0_2 (StableHlo.after hostOps0_1 (StableHlo.after hostOps0 V)) (Proc.devRef .tc main_arg0) = V (Proc.devRef .tc main_arg0) := by
  dsimp only [hostOps0, hostOps0_1, hostOps0_2]
  after_results
theorem K0_keep_arg2 (V : Valuation τ sig (Elt F)) : StableHlo.after hostOps0_2 (StableHlo.after hostOps0_1 (StableHlo.after hostOps0 V)) (Proc.devRef .tc main_arg2) = V (Proc.devRef .tc main_arg2) := by
  dsimp only [hostOps0, hostOps0_1, hostOps0_2]
  after_results
theorem K0_keep_arg3 (V : Valuation τ sig (Elt F)) : StableHlo.after hostOps0_2 (StableHlo.after hostOps0_1 (StableHlo.after hostOps0 V)) (Proc.devRef .tc main_arg3) = V (Proc.devRef .tc main_arg3) := by
  dsimp only [hostOps0, hostOps0_1, hostOps0_2]
  after_results
theorem K0_keep_arg4 (V : Valuation τ sig (Elt F)) : StableHlo.after hostOps0_2 (StableHlo.after hostOps0_1 (StableHlo.after hostOps0 V)) (Proc.devRef .tc main_arg4) = V (Proc.devRef .tc main_arg4) := by
  dsimp only [hostOps0, hostOps0_1, hostOps0_2]
  after_results
theorem K0_keep_arg5 (V : Valuation τ sig (Elt F)) : StableHlo.after hostOps0_2 (StableHlo.after hostOps0_1 (StableHlo.after hostOps0 V)) (Proc.devRef .tc main_arg5) = V (Proc.devRef .tc main_arg5) := by
  dsimp only [hostOps0, hostOps0_1, hostOps0_2]
  after_results

/-! ## Between the first and second regions -/

set_option maxHeartbeats 8000000 in
theorem K1_out (V : Valuation τ sig (Elt F)) (x1 : (⟨Cert.ReferenceIdeal.S2x3200000, .i32⟩ : BufTy).Contents (Elt F))
    (hs : V (Proc.devRef .tc main_v3) = Cert.ReferenceIdeal.Spec.src (F := F) x1) (hd : V (Proc.devRef .tc main_v6) = Cert.ReferenceIdeal.Spec.dst (F := F) x1) (hw : V (Proc.devRef .tc main_v29) = Cert.ReferenceIdeal.Spec.weight (F := F) x1) :
    StableHlo.after hostOps1 V (Proc.devRef .tc main_v43) = Cert.ReferenceIdeal.Spec.spread16 (F := F) (V (Proc.devRef .tc main_v30)) x1 := by
  dsimp only [hostOps1]
  after_results
  rw [hs, hd, hw]
  rfl
theorem K1_keep_v3 (V : Valuation τ sig (Elt F)) : StableHlo.after hostOps1 V (Proc.devRef .tc main_v3) = V (Proc.devRef .tc main_v3) := by
  dsimp only [hostOps1]
  after_results
theorem K1_keep_v6 (V : Valuation τ sig (Elt F)) : StableHlo.after hostOps1 V (Proc.devRef .tc main_v6) = V (Proc.devRef .tc main_v6) := by
  dsimp only [hostOps1]
  after_results
theorem K1_keep_v29 (V : Valuation τ sig (Elt F)) : StableHlo.after hostOps1 V (Proc.devRef .tc main_v29) = V (Proc.devRef .tc main_v29) := by
  dsimp only [hostOps1]
  after_results
theorem K1_keep_arg3 (V : Valuation τ sig (Elt F)) : StableHlo.after hostOps1 V (Proc.devRef .tc main_arg3) = V (Proc.devRef .tc main_arg3) := by
  dsimp only [hostOps1]
  after_results
theorem K1_keep_arg4 (V : Valuation τ sig (Elt F)) : StableHlo.after hostOps1 V (Proc.devRef .tc main_arg4) = V (Proc.devRef .tc main_arg4) := by
  dsimp only [hostOps1]
  after_results
theorem K1_keep_arg5 (V : Valuation τ sig (Elt F)) : StableHlo.after hostOps1 V (Proc.devRef .tc main_arg5) = V (Proc.devRef .tc main_arg5) := by
  dsimp only [hostOps1]
  after_results

/-! ## Between the second and third regions -/

set_option maxHeartbeats 8000000 in
theorem K2_out (V : Valuation τ sig (Elt F)) (x1 : (⟨Cert.ReferenceIdeal.S2x3200000, .i32⟩ : BufTy).Contents (Elt F))
    (hs : V (Proc.devRef .tc main_v3) = Cert.ReferenceIdeal.Spec.src (F := F) x1) (hd : V (Proc.devRef .tc main_v6) = Cert.ReferenceIdeal.Spec.dst (F := F) x1) (hw : V (Proc.devRef .tc main_v29) = Cert.ReferenceIdeal.Spec.weight (F := F) x1) :
    StableHlo.after hostOps2 V (Proc.devRef .tc main_v57) = Cert.ReferenceIdeal.Spec.spread7 (F := F) (V (Proc.devRef .tc main_v44)) x1 := by
  dsimp only [hostOps2]
  after_results
  rw [hs, hd, hw]
  rfl
theorem K2_keep_arg5 (V : Valuation τ sig (Elt F)) : StableHlo.after hostOps2 V (Proc.devRef .tc main_arg5) = V (Proc.devRef .tc main_arg5) := by
  dsimp only [hostOps2]
  after_results

end Cert.KernelIdeal.Hand

end
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.LibRows.lean ====
/-
  Row-wise operations on matrices of extended reals, read at an index.

  A matrix times a matrix (the sum over the shared index), a matrix plus a row vector on every row, that sum floored at a
  constant, the maximum of a row from a starting value, and the row-wise log-softmax: each entry minus its row's maximum,
  minus the logarithm of the sum over the row of the exponentials of the entries minus the maximum.
-/
import Idealize.ShloMosaic.PureOps.Ideal.Laws
import Idealize.ShloMosaic.Lib.ValueIdx

set_option maxRecDepth 16384

noncomputable section

open scoped BigOperators

namespace Cert.Rows

open Idealize.ShloMosaic Idealize.ShloMosaic.ValueIdx

/-- The product of two matrices at an index: the sum over k of x(i₀, k) · w(k, i₁). -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A row vector added on every row. -/
def plusRow {M K : Nat} (a : (⟨2, ![M, K]⟩ : Shape).Idx → EReal) (b : (⟨1, ![K]⟩ : Shape).Idx → EReal) :
    (⟨2, ![M, K]⟩ : Shape).Idx → EReal :=
  fun i => a i + b (ix1 (i 1))

/-- A row vector added on every row, the sum floored at `z`. -/
def flooredPlusRow {M K : Nat} (z : EReal) (a : (⟨2, ![M, K]⟩ : Shape).Idx → EReal) (b : (⟨1, ![K]⟩ : Shape).Idx → EReal) :
    (⟨2, ![M, K]⟩ : Shape).Idx → EReal :=
  fun i => max (a i + b (ix1 (i 1))) z

/-- The maximum of row p, from the starting value `s`. -/
def rowTop {M K : Nat} (s : EReal) (z : (⟨2, ![M, K]⟩ : Shape).Idx → EReal) (p : Fin M) : EReal :=
  (Finset.univ : Finset (Fin K)).fold max s (fun k => z (ix2 p k))

/-- The row-wise log-softmax, the rows' maxima taken from `s`. -/
def logSoftmaxRows {M K : Nat} (s : EReal) (z : (⟨2, ![M, K]⟩ : Shape).Idx → EReal) : (⟨2, ![M, K]⟩ : Shape).Idx → EReal :=
  fun i => (z i - rowTop s z (i 0)) - Ideal.log (∑ k : Fin K, Ideal.exp (z (ix2 (i 0) k) - rowTop s z (i 0)))

/-- A maximum taken from `s` is at least `s`, so taking it against `s` once more changes nothing. -/
theorem max_rowTop {M K : Nat} (s : EReal) (z : (⟨2, ![M, K]⟩ : Shape).Idx → EReal) (p : Fin M) :
    max s (rowTop s z p) = rowTop s z p :=
  max_eq_right ((Finset.le_fold_max s).2 (Or.inl le_rfl))

/-- The log-softmax at an index depends only on the entry there and on the entries of its row. -/
theorem logSoftmaxRows_congr {M M' K : Nat} (s : EReal) (z : (⟨2, ![M, K]⟩ : Shape).Idx → EReal) (z' : (⟨2, ![M', K]⟩ : Shape).Idx → EReal)
    (i : (⟨2, ![M, K]⟩ : Shape).Idx) (i' : (⟨2, ![M', K]⟩ : Shape).Idx) (hi : z i = z' i')
    (h : ∀ k : Fin K, z (ix2 (i 0) k) = z' (ix2 (i' 0) k)) : logSoftmaxRows s z i = logSoftmaxRows s z' i' := by
  have ht : rowTop s z (i 0) = rowTop s z' (i' 0) := by
    unfold rowTop
    exact congrArg (fun f => Finset.fold max s f (Finset.univ : Finset (Fin K))) (funext h)
  unfold logSoftmaxRows
  rw [hi, ht]
  exact congrArg (fun f : Fin K → EReal => z' i' - rowTop s z' (i' 0) - Ideal.log (∑ k : Fin K, Ideal.exp (f k - rowTop s z' (i' 0)))) (funext h)

end Cert.Rows

end
-- ==== Proof.Region0.lean ====
/-
  The first tiled region: the product x·W₁, block of rows by block of rows.

  The grid has 25 points; point t holds rows 4000·t … 4000·t + 3999 of x, all of W₁, and writes the same rows of the result.
  A point's body multiplies its two blocks into a zero accumulator (the change of float format before the product is the
  identity on the extended reals), so the entry at row r, column q of its block is the sum over k of x(4000·t + r, k) ·
  W₁(k, q). The 25 blocks tile the result, so after the region the whole result array is the product read at an index.
-/
import proofs.«140936_j44255343018662_1_alg».proof.Proof.Gen.KernelIdeal.Frame
import proofs.«140936_j44255343018662_1_alg».proof.Proof.LibDotPlain
import proofs.«140936_j44255343018662_1_alg».proof.Proof.LibRows
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Rows

variable (V : (c : Dev nD) → (b : Ref sig .tc) → Buf (Elt Ideal) ((c : Thread nD τ).loc b))

theorem zero2 : (![0, 0] : Fin 2 → Nat) = fun _ => 0 := funext fun a => by fin_cases a <;> rfl

theorem plain0 : DotPlain.IsPlain dot_S4000x512_S512x16_S4000x16_1_0_0_1_n_n := ⟨rfl, rfl, rfl, rfl, rfl, rfl⟩

/-- The body's stored value at an entry of its block: the row of the x block against the column of W₁. -/
theorem pay0_apply (x0 : Vec Ideal S4000x512 .f32) (x1 : Vec Ideal S512x16 .f32) (j : S4000x16.Idx) :
    k0_pay1 x0 x1 j = rowsTimes (M := 4000) (K := 512) (N := 16) x0 x1 j := by
  unfold k0_pay1
  exact DotPlain.matmul_zero_apply plain0 none _ _ j

/-- Where the windows' blocks sit at point t: the x block and the result block at block row t, W₁ whole. -/
theorem where0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point t writes back is block t of the product of the arrays the region found. -/
theorem flushed0_eq (c : Dev nD) (t : Fin cfg0.N) :
    (dat0 V c).flushed 2 t = ((cfg0.win 2).blk t).view.read (Elt Ideal)
      (rowsTimes (M := 100000) (K := 512) (N := 16) (V c main_arg0) (V c main_arg2)) := by
  show (cfg0.win 2).cut (grid0.coords t) ((dat0 V c).after 2 t) = _
  rw [after0_2]
  unfold out0_2
  rw [View.canon_unit_zero zero2]
  simp only [View.ld_unit_zero (S := S4000x512) zero2, View.ld_unit_zero (S := S512x16) zero2]
  obtain ⟨e0, e1, e2, e3, e4, e5⟩ := where0 t
  funext j
  show k0_pay1 (iblk0 V c 0 t) (iblk0 V c 1 t) j
    = rowsTimes (M := 100000) (K := 512) (N := 16) (V c main_arg0) (V c main_arg2) (((cfg0.win 2).blk t).view.emb j)
  refine (pay0_apply (iblk0 V c 0 t) (iblk0 V c 1 t) j).trans ?_
  unfold rowsTimes
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 512 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 512 + 1 * k.val = k.val; omega
    | ⟨1, _⟩ => show win0_1.index t (1 : Fin 2) * 16 + 1 * (j 1).val = win0_2.index t (1 : Fin 2) * 16 + 1 * (j 1).val; omega
  have key : ∀ (A : (⟨2, ![100000, 512]⟩ : Shape).Idx → EReal) (B : (⟨2, ![512, 16]⟩ : Shape).Idx → EReal),
      A (((cfg0.win 0).blk t).view.emb (ix2 (j 0) k)) * B (((cfg0.win 1).blk t).view.emb (ix2 k (j 1)))
        = A (ix2 ((((cfg0.win 2).blk t).view.emb j) 0) k) * B (ix2 k ((((cfg0.win 2).blk t).view.emb j) 1)) :=
    fun A B => congrArg₂ (fun a b => A a * B b) h0 h1
  exact key _ _

/-- An index of the result is in point t's block iff its row is one of the block's 4000 rows. -/
theorem mem_blk0 (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v30).slice (win0_2.rect t)).set ↔ _
  rw [View.set_slice_whole, Rect.mem_set_unit]
  exact Iff.rfl

/-- Every index of the result is in the block of the point its row falls in. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 25 := N_0
  let t : Fin cfg0.N := ⟨(i 0).val / 4000, by rw [hN]; omega⟩
  obtain ⟨e0, e1, e2, e3, e4, e5⟩ := where0 t
  have e5' : win0_2.index t (0 : Fin 2) = (i 0).val / 4000 := e5
  refine ⟨t, flush0_2 t, ?_⟩
  rw [mem_blk0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 16 ≤ (i 1).val ∧ (i 1).val < win0_2.index t (1 : Fin 2) * 16 + 16; omega

/-- After the region the result array is the product of the arrays the region found. -/
theorem final0 (c : Dev nD) : (dat0 V c).arrAt 2 cfg0.N
    = rowsTimes (M := 100000) (K := 512) (N := 16) (V c main_arg0) (V c main_arg2) :=
  (dat0 V c).arrAt_eq_of_cover 2 _ (fun t _ => flushed0_eq V c t) cover0

end Cert.KernelIdeal.Hand

end
-- ==== Proof.Region1.lean ====
/-
  The second tiled region: (a + b₁ floored at 0)·W₂, block of rows by block of rows.

  The grid has 25 points; point t holds rows 4000·t … 4000·t + 3999 of the propagated array a, all of b₁ and W₂, and writes
  the same rows of the result. A point's body adds b₁ (cast to one row and spread over the rows) to its block, floors the
  sum at the constant 0, and multiplies by W₂ into a zero accumulator. So the entry at row r, column q of its block is the
  sum over k of max(a(4000·t + r, k) + b₁(k), 0) · W₂(k, q), and the 25 blocks tile the result.
-/
import proofs.«140936_j44255343018662_1_alg».proof.Proof.Gen.KernelIdeal.Frame
import proofs.«140936_j44255343018662_1_alg».proof.Proof.LibDotPlain
import proofs.«140936_j44255343018662_1_alg».proof.Proof.LibRows
import proofs.«140936_j44255343018662_1_alg».proof.Proof.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Rows

variable (V : (c : Dev nD) → (b : Ref sig .tc) → Buf (Elt Ideal) ((c : Thread nD τ).loc b))

theorem zero1 : (![0] : Fin 1 → Nat) = fun _ => 0 := funext fun a => by fin_cases a; rfl

/-- The floor of the second region: the word 0 read as a float. -/
abbrev floor0 : EReal := Ideal.ofBits .f32 0x00000000#32

theorem plain1 : DotPlain.IsPlain dot_S4000x16_S16x7_S4000x7_1_0_0_1_n_n := ⟨rfl, rfl, rfl, rfl, rfl, rfl⟩

/-- The left factor of the body's product at row p, column k: the block's entry plus b₁(k), floored. -/
theorem floored_entry (x0 : Vec Ideal S4000x16 .f32) (x1 : Vec Ideal S16 .f32) (p : Fin 4000) (k : Fin 16) :
    maximumf (F := Ideal) (addf (shapeCast S4000x16 x0 shapeCasts_S4000x16_S4000x16)
        (broadcastTo S4000x16 (shapeCast S1x16 x1 shapeCasts_S16_S1x16) broadcasts_S1x16_S4000x16))
      (broadcast S4000x16 (Scalar.ofBits .f32 0x00000000#32)) (ix2 p k)
    = flooredPlusRow (M := 4000) (K := 16) floor0 x0 x1 (ix2 p k) := by
  show max (shapeCast S4000x16 x0 shapeCasts_S4000x16_S4000x16 (ix2 p k)
      + broadcastTo S4000x16 (shapeCast S1x16 x1 shapeCasts_S16_S1x16) broadcasts_S1x16_S4000x16 (ix2 p k)) floor0
    = max (x0 (ix2 p k) + x1 (ix1 k)) floor0
  rw [shapeCast_self, broadcastTo_1b_ab_apply, shapeCast_a_1a_apply]

/-- The body's stored value at an entry of its block. -/
theorem pay1_apply (x0 : Vec Ideal S4000x16 .f32) (x1 : Vec Ideal S16 .f32) (x2 : Vec Ideal S16x7 .f32) (j : S4000x7.Idx) :
    k1_pay1 x0 x1 x2 j = rowsTimes (M := 4000) (K := 16) (N := 7) (flooredPlusRow (M := 4000) (K := 16) floor0 x0 x1) x2 j := by
  unfold k1_pay1
  refine (DotPlain.matmul_zero_apply plain1 none _ _ j).trans ?_
  unfold rowsTimes
  refine Finset.sum_congr rfl fun k _ => ?_
  exact congrArg (· * x2 (ix2 k (j 1))) (floored_entry x0 x1 (j 0) k)

/-- Where the windows' blocks sit at point t: the a block and the result block at block row t, b₁ and W₂ whole. -/
theorem where1 : ∀ t : Fin cfg1.N, win1_0.index t (0 : Fin 2) = win1_3.index t (0 : Fin 2)
    ∧ win1_0.index t (1 : Fin 2) = 0 ∧ win1_1.index t (0 : Fin 1) = 0 ∧ win1_2.index t (0 : Fin 2) = 0 ∧ win1_2.index t (1 : Fin 2) = 0
    ∧ win1_3.index t (1 : Fin 2) = 0 ∧ win1_3.index t (0 : Fin 2) = t.val :=
  (by decide +kernel : ∀ t : Fin grid1.N, _)

/-- What point t writes back is block t of the floored sum times W₂, of the arrays the region found. -/
theorem flushed1_eq (c : Dev nD) (t : Fin cfg1.N) :
    (dat1 V c).flushed 3 t = ((cfg1.win 3).blk t).view.read (Elt Ideal)
      (rowsTimes (M := 100000) (K := 16) (N := 7) (flooredPlusRow (M := 100000) (K := 16) floor0 (V c main_v43) (V c main_arg3)) (V c main_arg4)) := by
  show (cfg1.win 3).cut (grid1.coords t) ((dat1 V c).after 3 t) = _
  rw [after1_3]
  unfold out1_3
  rw [View.canon_unit_zero zero2]
  simp only [View.ld_unit_zero (S := S4000x16) zero2, View.ld_unit_zero (S := S16) zero1, View.ld_unit_zero (S := S16x7) zero2]
  obtain ⟨e0, e1, e2, e3, e4, e5, e6⟩ := where1 t
  funext j
  show k1_pay1 (iblk1 V c 0 t) (iblk1 V c 1 t) (iblk1 V c 2 t) j
    = rowsTimes (M := 100000) (K := 16) (N := 7) (flooredPlusRow (M := 100000) (K := 16) floor0 (V c main_v43) (V c main_arg3)) (V c main_arg4) (((cfg1.win 3).blk t).view.emb j)
  refine (pay1_apply (iblk1 V c 0 t) (iblk1 V c 1 t) (iblk1 V c 2 t) j).trans ?_
  unfold rowsTimes flooredPlusRow
  refine Finset.sum_congr rfl fun k _ => ?_
  have h0 : ((cfg1.win 0).blk t).view.emb (ix2 (j 0) k) = ix2 ((((cfg1.win 3).blk t).view.emb j) 0) k := by
    funext a; apply Fin.ext
    match a with
    | ⟨0, _⟩ => show win1_0.index t (0 : Fin 2) * 4000 + 1 * (j 0).val = win1_3.index t (0 : Fin 2) * 4000 + 1 * (j 0).val; omega
    | ⟨1, _⟩ => show win1_0.index t (1 : Fin 2) * 16 + 1 * k.val = k.val; omega
  have h1 : ((cfg1.win 1).blk t).view.emb (ix1 k) = ix1 k := by
    funext a; apply Fin.ext
    match a with
    | ⟨0, _⟩ => show win1_1.index t (0 : Fin 1) * 16 + 1 * k.val = k.val; omega
  have h2 : ((cfg1.win 2).blk t).view.emb (ix2 k (j 1)) = ix2 k ((((cfg1.win 3).blk t).view.emb j) 1) := by
    funext a; apply Fin.ext
    match a with
    | ⟨0, _⟩ => show win1_2.index t (0 : Fin 2) * 16 + 1 * k.val = k.val; omega
    | ⟨1, _⟩ => show win1_2.index t (1 : Fin 2) * 7 + 1 * (j 1).val = win1_3.index t (1 : Fin 2) * 7 + 1 * (j 1).val; omega
  have key : ∀ (A : (⟨2, ![100000, 16]⟩ : Shape).Idx → EReal) (B : (⟨1, ![16]⟩ : Shape).Idx → EReal) (W : (⟨2, ![16, 7]⟩ : Shape).Idx → EReal),
      max (A (((cfg1.win 0).blk t).view.emb (ix2 (j 0) k)) + B (((cfg1.win 1).blk t).view.emb (ix1 k))) floor0 * W (((cfg1.win 2).blk t).view.emb (ix2 k (j 1)))
        = max (A (ix2 ((((cfg1.win 3).blk t).view.emb j) 0) k) + B (ix1 k)) floor0 * W (ix2 k ((((cfg1.win 3).blk t).view.emb j) 1)) :=
    fun A B W => by rw [h0, h1, h2] <;> rfl
  exact key _ _ _

/-- An index of the result is in point t's block iff its row is one of the block's 4000 rows. -/
theorem mem_blk1 (t : Fin cfg1.N) (i : S100000x7.Idx) :
    i ∈ ((cfg1.win 3).blk t).view.set ↔ ∀ a : Fin 2, win1_3.index t a * S4000x7.size a ≤ (i a).val ∧ (i a).val < win1_3.index t a * S4000x7.size a + S4000x7.size a := by
  show i ∈ ((View.whole main_v44).slice (win1_3.rect t)).set ↔ _
  rw [View.set_slice_whole, Rect.mem_set_unit]
  exact Iff.rfl

/-- Every index of the result is in the block of the point its row falls in. -/
theorem cover1 (i : S100000x7.Idx) : ∃ t : Fin cfg1.N, (cfg1.win 3).flush t = true ∧ i ∈ ((cfg1.win 3).blk t).view.set := by
  have hi0 : (i 0).val < 100000 := (i 0).isLt
  have hi1 : (i 1).val < 7 := (i 1).isLt
  have hN : cfg1.N = 25 := N_1
  let t : Fin cfg1.N := ⟨(i 0).val / 4000, by rw [hN]; omega⟩
  obtain ⟨e0, e1, e2, e3, e4, e5, e6⟩ := where1 t
  have e6' : win1_3.index t (0 : Fin 2) = (i 0).val / 4000 := e6
  refine ⟨t, flush1_3 t, ?_⟩
  rw [mem_blk1]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 7 ≤ (i 1).val ∧ (i 1).val < win1_3.index t (1 : Fin 2) * 7 + 7; omega

/-- After the region the result array is the floored sum times W₂, of the arrays the region found. -/
theorem final1 (c : Dev nD) : (dat1 V c).arrAt 3 cfg1.N
    = rowsTimes (M := 100000) (K := 16) (N := 7) (flooredPlusRow (M := 100000) (K := 16) floor0 (V c main_v43) (V c main_arg3)) (V c main_arg4) :=
  (dat1 V c).arrAt_eq_of_cover 3 _ (fun t _ => flushed1_eq V c t) cover1

end Cert.KernelIdeal.Hand

end
-- ==== Proof.LibRowReduce.lean ====
/-
  A matrix reduced along its rows and the result put back beside every entry, read at an index.

  A kernel that normalises the rows of an [a, b] matrix (a softmax, a layer norm over the last axis) reduces it over
  axis 1 to a vector [a], casts the vector to a column [a, 1] and broadcasts the column to [a, b]. At the ideal
  instance and at position (i, c): the broadcast column reads the column at (i, 0), the column reads the vector at i,
  and the vector at i is the sum, or the maximum from the accumulator's value, over k of the matrix at (i, k) — the
  reduced index i with k put back on the dropped axis is (i, k).
-/
import Idealize.ShloMosaic.PureOps.Ideal.Laws
import Idealize.ShloMosaic.Lib.Pipeline.Value
import Idealize.ShloMosaic.Lib.ValueIdx

noncomputable section

open scoped BigOperators

namespace Idealize.ShloMosaic.RowReduce

open Idealize.ShloMosaic Idealize.ShloMosaic.ValueIdx

variable {α : Type}

/-- An [a] vector cast to an [a, 1] column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (i, c), the column at (i, 0). -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The reduced index i with k put back on the dropped axis 1 is (i, k). -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the rows' entries: at i, the sum over k of the matrix at (i, k). -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the rows' entries: at i, the maximum from the accumulator's value over k of the matrix at (i, k). -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f Finset.univ) (funext fun k => congrArg src (lift_row h i k)))

end Idealize.ShloMosaic.RowReduce

end
-- ==== Proof.Region2.lean ====
/-
  The third tiled region: the row-wise log-softmax of a + b₂, block of rows by block of rows.

  The grid has 25 points; point t holds rows 4000·t … 4000·t + 3999 of the propagated array a and all of b₂, and writes the
  same rows of the result. A point's body adds b₂ (cast to one row and spread over the rows) to its block, takes each row's
  maximum from −∞, subtracts it, and subtracts the logarithm of the row's sum of exponentials. An entry of the result
  depends only on its own row, so the block's entry at row r is the whole array's log-softmax at row 4000·t + r, and the
  25 blocks tile the result.
-/
import proofs.«140936_j44255343018662_1_alg».proof.Proof.Gen.KernelIdeal.Frame
import proofs.«140936_j44255343018662_1_alg».proof.Proof.LibRowReduce
import proofs.«140936_j44255343018662_1_alg».proof.Proof.LibRows
import proofs.«140936_j44255343018662_1_alg».proof.Proof.Region1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Rows

variable (V : (c : Dev nD) → (b : Ref sig .tc) → Buf (Elt Ideal) ((c : Thread nD τ).loc b))

/-- The starting value of the rows' maxima: the word of −∞ read as a float. -/
abbrev bottom : EReal := Ideal.ofBits .f32 0xFF800000#32

/-- The block plus b₂ on every row, as one function. -/
theorem biased_eq (x0 : FVec Ideal S4000x7 .f32) (x1 : FVec Ideal S7 .f32) :
    addf (F := Ideal) (φ := .f32) (shapeCast S4000x7 x0 shapeCasts_S4000x7_S4000x7)
        (broadcastTo S4000x7 (shapeCast S1x7 x1 shapeCasts_S7_S1x7) broadcasts_S1x7_S4000x7)
    = plusRow (M := 4000) (K := 7) x0 x1 := by
  funext i
  obtain ⟨p, k, rfl⟩ : ∃ (p : Fin 4000) (k : Fin 7), i = ix2 p k := ⟨i 0, i 1, eq_ix2 i⟩
  show shapeCast S4000x7 x0 shapeCasts_S4000x7_S4000x7 (ix2 p k)
      + broadcastTo S4000x7 (shapeCast S1x7 x1 shapeCasts_S7_S1x7) broadcasts_S1x7_S4000x7 (ix2 p k)
    = x0 (ix2 p k) + x1 (ix1 k)
  rw [shapeCast_self, broadcastTo_1b_ab_apply, shapeCast_a_1a_apply]

/-- The body's arithmetic on a block z of biased rows, at an entry: the log-softmax of the entry's row. -/
theorem softmax_entry (z : FVec Ideal S4000x7 .f32) (hφ : FKind.Formats .f32)
    (hm : (0xFF800000#32 : BitVec 32) = FKind.maximumf.neutral .f32 hφ) (ha : (0x00000000#32 : BitVec 32) = FKind.add.neutral .f32 hφ)
    (p : Fin 4000) (q : Fin 7) :
    subf (F := Ideal) (φ := .f32) (subf (F := Ideal) (φ := .f32) z (broadcastTo S4000x7 (shapeCast S4000x1 (multiReduction (F := Ideal) .maximumf [1] S4000 z 0xFF800000#32 reduces_S4000x7_S4000 hφ hm) shapeCasts_S4000_S4000x1) broadcasts_S4000x1_S4000x7))
      (broadcastTo S4000x7 (log (F := Ideal) (φ := .f32) (shapeCast S4000x1 (multiReduction (F := Ideal) .add [1] S4000
        (exp (F := Ideal) (φ := .f32) (subf (F := Ideal) (φ := .f32) z (broadcastTo S4000x7 (shapeCast S4000x1 (multiReduction (F := Ideal) .maximumf [1] S4000 z 0xFF800000#32 reduces_S4000x7_S4000 hφ hm) shapeCasts_S4000_S4000x1) broadcasts_S4000x1_S4000x7)))
        0x00000000#32 reduces_S4000x7_S4000 hφ ha) shapeCasts_S4000_S4000x1)) broadcasts_S4000x1_S4000x7)
      (ix2 p q)
    = logSoftmaxRows (M := 4000) (K := 7) bottom z (ix2 p q) := by
  have htop : ∀ (p' : Fin 4000) (q' : Fin 7), (broadcastTo S4000x7 (shapeCast S4000x1 (multiReduction (F := Ideal) .maximumf [1] S4000 z 0xFF800000#32 reduces_S4000x7_S4000 hφ hm) shapeCasts_S4000_S4000x1) broadcasts_S4000x1_S4000x7) (ix2 p' q') = rowTop (M := 4000) (K := 7) bottom z p' := by
    intro p' q'
    rw [RowReduce.broadcastTo_a1_ab_apply, RowReduce.shapeCast_a_a1_apply]
    exact RowReduce.rowMax_apply z _ reduces_S4000x7_S4000 hφ hm p'
  have hzc : ∀ (p' : Fin 4000) (q' : Fin 7), (subf (F := Ideal) (φ := .f32) z (broadcastTo S4000x7 (shapeCast S4000x1 (multiReduction (F := Ideal) .maximumf [1] S4000 z 0xFF800000#32 reduces_S4000x7_S4000 hφ hm) shapeCasts_S4000_S4000x1) broadcasts_S4000x1_S4000x7)) (ix2 p' q') = z (ix2 p' q') - rowTop (M := 4000) (K := 7) bottom z p' := by
    intro p' q'
    show z (ix2 p' q') - (broadcastTo S4000x7 (shapeCast S4000x1 (multiReduction (F := Ideal) .maximumf [1] S4000 z 0xFF800000#32 reduces_S4000x7_S4000 hφ hm) shapeCasts_S4000_S4000x1) broadcasts_S4000x1_S4000x7) (ix2 p' q') = _
    rw [htop]
  show (subf (F := Ideal) (φ := .f32) z (broadcastTo S4000x7 (shapeCast S4000x1 (multiReduction (F := Ideal) .maximumf [1] S4000 z 0xFF800000#32 reduces_S4000x7_S4000 hφ hm) shapeCasts_S4000_S4000x1) broadcasts_S4000x1_S4000x7)) (ix2 p q) - broadcastTo S4000x7 _ broadcasts_S4000x1_S4000x7 (ix2 p q) = _
  rw [hzc, RowReduce.broadcastTo_a1_ab_apply]
  show _ - Ideal.log (shapeCast S4000x1 _ shapeCasts_S4000_S4000x1 (ix2 p (0 : Fin 1))) = _
  rw [RowReduce.shapeCast_a_a1_apply]
  refine (congrArg (fun s => z (ix2 p q) - rowTop (M := 4000) (K := 7) bottom z p - Ideal.log s)
    (RowReduce.rowSum_apply (exp (F := Ideal) (φ := .f32) (subf (F := Ideal) (φ := .f32) z (broadcastTo S4000x7 (shapeCast S4000x1 (multiReduction (F := Ideal) .maximumf [1] S4000 z 0xFF800000#32 reduces_S4000x7_S4000 hφ hm) shapeCasts_S4000_S4000x1) broadcasts_S4000x1_S4000x7))) _ reduces_S4000x7_S4000 hφ ha p)).trans ?_
  show _ = (z (ix2 p q) - rowTop bottom z p) - Ideal.log (∑ k : Fin 7, Ideal.exp (z (ix2 p k) - rowTop bottom z p))
  refine congrArg (fun s => z (ix2 p q) - rowTop (M := 4000) (K := 7) bottom z p - Ideal.log s) (Finset.sum_congr rfl fun k _ => ?_)
  show Ideal.exp ((subf (F := Ideal) (φ := .f32) z (broadcastTo S4000x7 (shapeCast S4000x1 (multiReduction (F := Ideal) .maximumf [1] S4000 z 0xFF800000#32 reduces_S4000x7_S4000 hφ hm) shapeCasts_S4000_S4000x1) broadcasts_S4000x1_S4000x7)) (ix2 p k)) = _
  rw [hzc]

/-- The body's stored value at an entry of its block. -/
theorem pay2_apply (x0 : Vec Ideal S4000x7 .f32) (x1 : Vec Ideal S7 .f32) (j : S4000x7.Idx) :
    k2_pay1 x0 x1 j = logSoftmaxRows (M := 4000) (K := 7) bottom (plusRow (M := 4000) (K := 7) x0 x1) j := by
  obtain ⟨p, q, rfl⟩ : ∃ (p : Fin 4000) (q : Fin 7), j = ix2 p q := ⟨j 0, j 1, eq_ix2 j⟩
  unfold k2_pay1
  dsimp only
  rw [biased_eq x0 x1]
  exact softmax_entry (plusRow (M := 4000) (K := 7) x0 x1) _ _ _ p q

/-- Where the windows' blocks sit at point t: the a block and the result block at block row t, b₂ whole. -/
theorem where2 : ∀ t : Fin cfg2.N, win2_0.index t (0 : Fin 2) = win2_2.index t (0 : Fin 2)
    ∧ win2_0.index t (1 : Fin 2) = 0 ∧ win2_1.index t (0 : Fin 1) = 0
    ∧ win2_2.index t (1 : Fin 2) = 0 ∧ win2_2.index t (0 : Fin 2) = t.val :=
  (by decide +kernel : ∀ t : Fin grid2.N, _)

/-- What point t writes back is block t of the log-softmax of the biased array the region found. -/
theorem flushed2_eq (c : Dev nD) (t : Fin cfg2.N) :
    (dat2 V c).flushed 2 t = ((cfg2.win 2).blk t).view.read (Elt Ideal)
      (logSoftmaxRows (M := 100000) (K := 7) bottom (plusRow (M := 100000) (K := 7) (V c main_v57) (V c main_arg5))) := by
  show (cfg2.win 2).cut (grid2.coords t) ((dat2 V c).after 2 t) = _
  rw [after2_2]
  unfold out2_2
  rw [View.canon_unit_zero zero2]
  simp only [View.ld_unit_zero (S := S4000x7) zero2, View.ld_unit_zero (S := S7) zero1]
  obtain ⟨e0, e1, e2, e3, e4⟩ := where2 t
  funext j
  show k2_pay1 (iblk2 V c 0 t) (iblk2 V c 1 t) j
    = logSoftmaxRows (M := 100000) (K := 7) bottom (plusRow (M := 100000) (K := 7) (V c main_v57) (V c main_arg5)) (((cfg2.win 2).blk t).view.emb j)
  refine (pay2_apply (iblk2 V c 0 t) (iblk2 V c 1 t) j).trans ?_
  have h1 : ∀ k : Fin 7, ((cfg2.win 1).blk t).view.emb (ix1 k) = ix1 k := by
    intro k; funext a; apply Fin.ext
    match a with
    | ⟨0, _⟩ => show win2_1.index t (0 : Fin 1) * 7 + 1 * k.val = k.val; omega
  have h0 : ∀ k : Fin 7, ((cfg2.win 0).blk t).view.emb (ix2 (j 0) k) = ix2 ((((cfg2.win 2).blk t).view.emb j) 0) k := by
    intro k; funext a; apply Fin.ext
    match a with
    | ⟨0, _⟩ => show win2_0.index t (0 : Fin 2) * 4000 + 1 * (j 0).val = win2_2.index t (0 : Fin 2) * 4000 + 1 * (j 0).val; omega
    | ⟨1, _⟩ => show win2_0.index t (1 : Fin 2) * 7 + 1 * k.val = k.val; omega
  have hj : ((cfg2.win 0).blk t).view.emb j = ((cfg2.win 2).blk t).view.emb j := by
    funext a; apply Fin.ext
    match a with
    | ⟨0, _⟩ => show win2_0.index t (0 : Fin 2) * 4000 + 1 * (j 0).val = win2_2.index t (0 : Fin 2) * 4000 + 1 * (j 0).val; omega
    | ⟨1, _⟩ => show win2_0.index t (1 : Fin 2) * 7 + 1 * (j 1).val = win2_2.index t (1 : Fin 2) * 7 + 1 * (j 1).val; omega
  have hj1 : ((((cfg2.win 2).blk t).view.emb j) 1).val = (j 1).val := by
    show win2_2.index t (1 : Fin 2) * 7 + 1 * (j 1).val = (j 1).val; omega
  have key : ∀ (A : (⟨2, ![100000, 7]⟩ : Shape).Idx → EReal) (B : (⟨1, ![7]⟩ : Shape).Idx → EReal),
      logSoftmaxRows (M := 4000) (K := 7) bottom (plusRow (M := 4000) (K := 7) (fun y => A (((cfg2.win 0).blk t).view.emb y)) (fun y => B (((cfg2.win 1).blk t).view.emb y))) j
        = logSoftmaxRows (M := 100000) (K := 7) bottom (plusRow (M := 100000) (K := 7) A B) (((cfg2.win 2).blk t).view.emb j) := by
    intro A B
    refine logSoftmaxRows_congr bottom _ _ j (((cfg2.win 2).blk t).view.emb j) ?_ ?_
    · show A (((cfg2.win 0).blk t).view.emb j) + B (((cfg2.win 1).blk t).view.emb (ix1 (j 1))) = A (((cfg2.win 2).blk t).view.emb j) + B (ix1 ((((cfg2.win 2).blk t).view.emb j) 1))
      exact congrArg₂ (fun a b => A a + B b) hj ((h1 (j 1)).trans (congrArg (ix1 (n := 7)) (Fin.ext hj1.symm)))
    · intro k
      show A (((cfg2.win 0).blk t).view.emb (ix2 (j 0) k)) + B (((cfg2.win 1).blk t).view.emb (ix1 k)) = A (ix2 ((((cfg2.win 2).blk t).view.emb j) 0) k) + B (ix1 k)
      exact congrArg₂ (fun a b => A a + B b) (h0 k) (h1 k)
  exact key _ _

/-- An index of the result is in point t's block iff its row is one of the block's 4000 rows. -/
theorem mem_blk2 (t : Fin cfg2.N) (i : S100000x7.Idx) :
    i ∈ ((cfg2.win 2).blk t).view.set ↔ ∀ a : Fin 2, win2_2.index t a * S4000x7.size a ≤ (i a).val ∧ (i a).val < win2_2.index t a * S4000x7.size a + S4000x7.size a := by
  show i ∈ ((View.whole main_v58).slice (win2_2.rect t)).set ↔ _
  rw [View.set_slice_whole, Rect.mem_set_unit]
  exact Iff.rfl

/-- Every index of the result is in the block of the point its row falls in. -/
theorem cover2 (i : S100000x7.Idx) : ∃ t : Fin cfg2.N, (cfg2.win 2).flush t = true ∧ i ∈ ((cfg2.win 2).blk t).view.set := by
  have hi0 : (i 0).val < 100000 := (i 0).isLt
  have hi1 : (i 1).val < 7 := (i 1).isLt
  have hN : cfg2.N = 25 := N_2
  let t : Fin cfg2.N := ⟨(i 0).val / 4000, by rw [hN]; omega⟩
  obtain ⟨e0, e1, e2, e3, e4⟩ := where2 t
  have e4' : win2_2.index t (0 : Fin 2) = (i 0).val / 4000 := e4
  refine ⟨t, flush2_2 t, ?_⟩
  rw [mem_blk2]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 7 ≤ (i 1).val ∧ (i 1).val < win2_2.index t (1 : Fin 2) * 7 + 7; omega

/-- After the region the result array is the log-softmax of the biased array the region found. -/
theorem final2 (c : Dev nD) : (dat2 V c).arrAt 2 cfg2.N
    = logSoftmaxRows (M := 100000) (K := 7) bottom (plusRow (M := 100000) (K := 7) (V c main_v57) (V c main_arg5)) :=
  (dat2 V c).arrAt_eq_of_cover 2 _ (fun t _ => flushed2_eq V c t) cover2

end Cert.KernelIdeal.Hand

end
-- ==== Proof.LibHostRowMax.lean ====
/-
  The host's reduction of a matrix along its rows, read at an index.

  A reference that takes the maximum of each row of an [a, b] matrix reduces it over axis 1 with the maximum from an
  initial value. At the ideal instance and at row i the result is the fold of the maximum, from the initial value, over k of
  the matrix at (i, k): the reduced index i with k put back on the dropped axis is (i, k).
-/
import Idealize.ShloMosaic.PureOps.Ideal.Laws
import Idealize.ShloMosaic.Lib.ValueIdx

noncomputable section

namespace Idealize.ShloMosaic.HostRowMax

open Idealize.ShloMosaic Idealize.ShloMosaic.ValueIdx

/-- The reduced index i with k put back on the dropped axis 1 is (i, k). -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- The host's maximum over the rows' entries: at i, the fold of the maximum, from the initial value, over k of the
    matrix at (i, k). -/
theorem hostRowMax_apply {a b : ℕ} {u : Shape} (x : FVec Ideal ⟨2, ![a, b]⟩ .f32) (init : u.Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < u.numel) (i : Fin a) :
    Host.reduce FloatOps.maximumf x init h' hu (ix1 i)
      = (Finset.univ : Finset (Fin b)).fold max (init (Shape.Idx.first hu)) (fun k => x (ix2 i k)) := by
  rw [Host.reduce_eq_fold_single FloatOps.maximumf x init h' h hu]
  exact congrArg (fun f => Finset.fold max (init (Shape.Idx.first hu)) f (Finset.univ : Finset (Fin b)))
    (funext fun k => congrArg x (lift_row h i k))

end Idealize.ShloMosaic.HostRowMax

end
-- ==== Proof.Bridge.lean ====
/-
  The reference's host operations for the dense parts of the network, read at an index on the extended reals.

  The host's matrix product is the sum over the shared index; a bias vector spread over the rows (first to one row, then
  to every row) reads the vector at the column; a constant spread over an array reads the constant; the host's row
  maximum is the fold of the maximum from its starting value, and taking it against that value once more changes
  nothing; a per-row vector put in a column and spread beside every entry reads the vector at the row; the host's row sum
  from the zero word is the plain sum. So the reference's product, its floored biased sum, its biased sum and its
  log-softmax are the row-wise functions of LibRows.lean.
-/
import proofs.«140936_j44255343018662_1_alg».proof.Proof.Spec
import proofs.«140936_j44255343018662_1_alg».proof.Proof.LibRows
import proofs.«140936_j44255343018662_1_alg».proof.Proof.LibDotPlain
import proofs.«140936_j44255343018662_1_alg».proof.Proof.LibHostRowMax
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Bridge

open Cert.ReferenceIdeal Cert.ReferenceIdeal.Gen Cert.ReferenceIdeal.Spec
open Idealize.ShloMosaic Idealize.ShloMosaic.ValueIdx
open Cert.Rows

/-- The word 0 read as a float. -/
abbrev floor0 : EReal := Ideal.ofBits .f32 0x00000000#32
/-- The word of −∞ read as a float. -/
abbrev bottom : EReal := Ideal.ofBits .f32 0xFF800000#32

theorem plain1 : DotPlain.IsPlain dot_S100000x512_S512x16_S100000x16_1_0_0_1_n_n := ⟨rfl, rfl, rfl, rfl, rfl, rfl⟩
theorem plain2 : DotPlain.IsPlain dot_S100000x16_S16x7_S100000x7_1_0_0_1_n_n := ⟨rfl, rfl, rfl, rfl, rfl, rfl⟩

/-- The first layer's host product is the matrix product. -/
theorem mix1_eq (x0 : (⟨S100000x512, .f32⟩ : BufTy).Contents (Elt Ideal)) (x2 : (⟨S512x16, .f32⟩ : BufTy).Contents (Elt Ideal)) :
    mix1 (F := Ideal) x0 x2 = rowsTimes (M := 100000) (K := 512) (N := 16) x0 x2 :=
  funext fun i => DotPlain.dotGeneral_apply plain1 none x0 x2 i

/-- The second layer's host product is the matrix product. -/
theorem mix2_eq (h : (⟨S100000x16, .f32⟩ : BufTy).Contents (Elt Ideal)) (x4 : (⟨S16x7, .f32⟩ : BufTy).Contents (Elt Ideal)) :
    mix2 (F := Ideal) h x4 = rowsTimes (M := 100000) (K := 16) (N := 7) h x4 :=
  funext fun i => DotPlain.dotGeneral_apply plain2 none h x4 i

/-- The reference's biased sum floored at 0 is the floored sum of LibRows.lean. -/
theorem hidden_eq (a : (⟨S100000x16, .f32⟩ : BufTy).Contents (Elt Ideal)) (x3 : (⟨S16, .f32⟩ : BufTy).Contents (Elt Ideal)) :
    hidden (F := Ideal) a x3 = flooredPlusRow (M := 100000) (K := 16) floor0 a x3 := by
  funext i
  obtain ⟨p, k, rfl⟩ : ∃ (p : Fin 100000) (k : Fin 16), i = ix2 p k := ⟨i 0, i 1, eq_ix2 i⟩
  show max (a (ix2 p k) + broadcastInDim S100000x16 ![0, 1] bcast_S1x16_S100000x16_0_1 (broadcastInDim S1x16 ![1] bcast_S16_S1x16_1 x3) (ix2 p k))
      (broadcastInDim S100000x16 ![] bcast_S_S100000x16 (constant (F := Ideal) S_ .f32 0x00000000#32) (ix2 p k))
    = max (a (ix2 p k) + x3 (ix1 k)) floor0
  rw [broadcastInDim_apply _ bcast_S1x16_S100000x16_0_1 _ (ix2 p k) (ix2 (0 : Fin 1) k) (fun a => match a with
      | ⟨0, _⟩ => by show 0 = if (1 : Nat) = 1 then 0 else p.val; rw [if_pos rfl]
      | ⟨1, _⟩ => by show k.val = if (16 : Nat) = 1 then 0 else k.val; rw [if_neg (by decide)]),
    broadcastInDim_apply _ bcast_S16_S1x16_1 x3 (ix2 (0 : Fin 1) k) (ix1 k) (fun a => match a with
      | ⟨0, _⟩ => by show k.val = if (16 : Nat) = 1 then 0 else k.val; rw [if_neg (by decide)]),
    broadcastInDim_apply _ bcast_S_S100000x16 _ (ix2 p k) ix0 (fun a => a.elim0)]
  rfl

/-- The reference's biased sum is the row-wise sum of LibRows.lean. -/
theorem logits_eq (a : (⟨S100000x7, .f32⟩ : BufTy).Contents (Elt Ideal)) (x5 : (⟨S7, .f32⟩ : BufTy).Contents (Elt Ideal)) :
    logits (F := Ideal) a x5 = plusRow (M := 100000) (K := 7) a x5 := by
  funext i
  obtain ⟨p, k, rfl⟩ : ∃ (p : Fin 100000) (k : Fin 7), i = ix2 p k := ⟨i 0, i 1, eq_ix2 i⟩
  show a (ix2 p k) + broadcastInDim S100000x7 ![0, 1] bcast_S1x7_S100000x7_0_1 (broadcastInDim S1x7 ![1] bcast_S7_S1x7_1 x5) (ix2 p k)
    = a (ix2 p k) + x5 (ix1 k)
  rw [broadcastInDim_apply _ bcast_S1x7_S100000x7_0_1 _ (ix2 p k) (ix2 (0 : Fin 1) k) (fun a => match a with
      | ⟨0, _⟩ => by show 0 = if (1 : Nat) = 1 then 0 else p.val; rw [if_pos rfl]
      | ⟨1, _⟩ => by show k.val = if (7 : Nat) = 1 then 0 else k.val; rw [if_neg (by decide)]),
    broadcastInDim_apply _ bcast_S7_S1x7_1 x5 (ix2 (0 : Fin 1) k) (ix1 k) (fun a => match a with
      | ⟨0, _⟩ => by show k.val = if (7 : Nat) = 1 then 0 else k.val; rw [if_neg (by decide)])]

/-- A per-row vector put in a column and spread beside every entry reads the vector at the row. -/
theorem beside_column_apply (v : (⟨S100000, .f32⟩ : BufTy).Contents (Elt Ideal)) (p : Fin 100000) (q : Fin 7) :
    beside (F := Ideal) (column (F := Ideal) v) (ix2 p q) = v (ix1 p) := by
  unfold beside column
  rw [broadcastInDim_apply _ bcast_S100000x1_S100000x7_0_1 _ (ix2 p q) (ix2 p (0 : Fin 1)) (fun a => match a with
      | ⟨0, _⟩ => by show p.val = if (100000 : Nat) = 1 then 0 else p.val; rw [if_neg (by decide)]
      | ⟨1, _⟩ => by show 0 = if (1 : Nat) = 1 then 0 else q.val; rw [if_pos rfl]),
    broadcastInDim_apply _ bcast_S100000_S100000x1_0 v (ix2 p (0 : Fin 1)) (ix1 p) (fun a => match a with
      | ⟨0, _⟩ => by show p.val = if (100000 : Nat) = 1 then 0 else p.val; rw [if_neg (by decide)])]

/-- The reference's row maximum is the fold of the maximum from −∞. -/
theorem rowMax_apply (z : (⟨S100000x7, .f32⟩ : BufTy).Contents (Elt Ideal)) (p : Fin 100000) :
    rowMax (F := Ideal) z (ix1 p) = rowTop (M := 100000) (K := 7) bottom z p := by
  show max (broadcastInDim S100000 ![] bcast_S_S100000 (constant (F := Ideal) S_ .f32 0xFF800000#32) (ix1 p))
      (Host.reduce FloatOps.maximumf z (constant (F := Ideal) S_ .f32 0xFF800000#32) reducesTo_S100000x7_S100000_d1 h_S_ (ix1 p))
    = _
  rw [broadcastInDim_apply _ bcast_S_S100000 _ (ix1 p) ix0 (fun a => a.elim0),
    HostRowMax.hostRowMax_apply z _ reducesTo_S100000x7_S100000_d1 (by decide) h_S_ p]
  exact max_rowTop bottom z p

/-- The reference's rows minus their maxima, at an entry. -/
theorem shifted_apply (z : (⟨S100000x7, .f32⟩ : BufTy).Contents (Elt Ideal)) (p : Fin 100000) (q : Fin 7) :
    shifted (F := Ideal) z (ix2 p q) = z (ix2 p q) - rowTop (M := 100000) (K := 7) bottom z p := by
  show z (ix2 p q) - beside (F := Ideal) (column (F := Ideal) (rowMax (F := Ideal) z)) (ix2 p q) = _
  rw [beside_column_apply, rowMax_apply]

/-- The host's row sum from the zero word is the plain sum over the row. -/
theorem rowSum_apply (y : (⟨S100000x7, .f32⟩ : BufTy).Contents (Elt Ideal)) (p : Fin 100000) :
    Host.reduceAdd (F := Ideal) y (constant (F := Ideal) S_ .f32 0x00000000#32) reducesTo_S100000x7_S100000_d1 h_S_ (ix1 p)
      = ∑ k : Fin 7, y (ix2 p k) := by
  simp only [Host.reduceAdd, Ideal.hostReduceAdd_def]
  rw [Ideal.hostReduceAdd_single reducesTo_S100000x7_S100000_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- The logarithm of a per-row vector, put in a column and spread beside every entry, reads the logarithm at the row. -/
theorem beside_log_column_apply (s : (⟨S100000, .f32⟩ : BufTy).Contents (Elt Ideal)) (p : Fin 100000) (q : Fin 7) :
    beside (F := Ideal) (Host.log (F := Ideal) (φ := .f32) (column (F := Ideal) s)) (ix2 p q) = Ideal.log (s (ix1 p)) := by
  unfold beside
  rw [broadcastInDim_apply _ bcast_S100000x1_S100000x7_0_1 _ (ix2 p q) (ix2 p (0 : Fin 1)) (fun a => match a with
      | ⟨0, _⟩ => by show p.val = if (100000 : Nat) = 1 then 0 else p.val; rw [if_neg (by decide)]
      | ⟨1, _⟩ => by show 0 = if (1 : Nat) = 1 then 0 else q.val; rw [if_pos rfl])]
  show Ideal.log (column (F := Ideal) s (ix2 p (0 : Fin 1))) = _
  unfold column
  rw [broadcastInDim_apply _ bcast_S100000_S100000x1_0 s (ix2 p (0 : Fin 1)) (ix1 p) (fun a => match a with
      | ⟨0, _⟩ => by show p.val = if (100000 : Nat) = 1 then 0 else p.val; rw [if_neg (by decide)])]

/-- The last subtraction of the log-softmax at an entry, for any per-row vector `s` of sums. -/
theorem minus_log_apply (y : (⟨S100000x7, .f32⟩ : BufTy).Contents (Elt Ideal)) (s : (⟨S100000, .f32⟩ : BufTy).Contents (Elt Ideal)) (p : Fin 100000) (q : Fin 7) :
    subf (F := Ideal) (φ := .f32) y (beside (F := Ideal) (Host.log (F := Ideal) (φ := .f32) (column (F := Ideal) s))) (ix2 p q)
      = y (ix2 p q) - Ideal.log (s (ix1 p)) := by
  show y (ix2 p q) - beside (F := Ideal) (Host.log (F := Ideal) (φ := .f32) (column (F := Ideal) s)) (ix2 p q) = _
  rw [beside_log_column_apply]

/-- The reference's log-softmax is the row-wise log-softmax of LibRows.lean, the maxima taken from −∞. -/
theorem logSoftmax_eq (z : (⟨S100000x7, .f32⟩ : BufTy).Contents (Elt Ideal)) :
    logSoftmax (F := Ideal) z = logSoftmaxRows (M := 100000) (K := 7) bottom z := by
  funext i
  obtain ⟨p, q, rfl⟩ : ∃ (p : Fin 100000) (q : Fin 7), i = ix2 p q := ⟨i 0, i 1, eq_ix2 i⟩
  unfold logSoftmax
  rw [minus_log_apply, rowSum_apply, shifted_apply]
  show _ = (z (ix2 p q) - rowTop bottom z p) - Ideal.log (∑ k : Fin 7, Ideal.exp (z (ix2 p k) - rowTop bottom z p))
  refine congrArg (fun s => z (ix2 p q) - rowTop (M := 100000) (K := 7) bottom z p - Ideal.log s) (Finset.sum_congr rfl fun k _ => ?_)
  show Ideal.exp (shifted (F := Ideal) z (ix2 p k)) = _
  rw [shifted_apply]

end Cert.ReferenceIdeal.Bridge

end
-- ==== Proof.KernelValue.lean ====
/-
  The idealized kernel program's result as the network's function of its arguments.

  Walking the boundaries of the program in order: before the first region the host stretches have built the edge lists
  and weights, and the argument arrays are as launched; the first region leaves x·W₁ (its blocks tile the product, and the
  host's product is the same sum); the next stretch propagates it; the second region leaves the floored biased sum times
  W₂; the next stretch propagates that; the third region leaves the log-softmax of the biased sum. Each buffer a later step
  reads and no step in between writes is carried along unchanged. So the result buffer at the last boundary holds the
  network's function of the six argument arrays, and the run ends there.
-/
import proofs.«140936_j44255343018662_1_alg».proof.Proof.KernelRun
import proofs.«140936_j44255343018662_1_alg».proof.Proof.KernelHost
import proofs.«140936_j44255343018662_1_alg».proof.Proof.Region0
import proofs.«140936_j44255343018662_1_alg».proof.Proof.Region1
import proofs.«140936_j44255343018662_1_alg».proof.Proof.Region2
import proofs.«140936_j44255343018662_1_alg».proof.Proof.Bridge

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.StableHlo
open Cert.Rows

variable (m : (ℓ : Loc nD τ sig) → Buf (Elt Ideal) ℓ) (ρ : Dev nD → PrngReg) (c : Dev nD)

/-! ## At the first region's entry -/

theorem at3_src : W3 m ρ c (Proc.devRef .tc main_v3) = Cert.ReferenceIdeal.Spec.src (F := Ideal) (m ((c.tc : Thread nD τ).loc main_arg1)) := K0_src (W0 m ρ c)
theorem at3_dst : W3 m ρ c (Proc.devRef .tc main_v6) = Cert.ReferenceIdeal.Spec.dst (F := Ideal) (m ((c.tc : Thread nD τ).loc main_arg1)) := K0_dst (W0 m ρ c)
theorem at3_weight : W3 m ρ c (Proc.devRef .tc main_v29) = Cert.ReferenceIdeal.Spec.weight (F := Ideal) (m ((c.tc : Thread nD τ).loc main_arg1)) := K0_weight (W0 m ρ c)
theorem at3_arg0 : W3 m ρ c (Proc.devRef .tc main_arg0) = (m ((c.tc : Thread nD τ).loc main_arg0)) := K0_keep_arg0 (W0 m ρ c)
theorem at3_arg2 : W3 m ρ c (Proc.devRef .tc main_arg2) = (m ((c.tc : Thread nD τ).loc main_arg2)) := K0_keep_arg2 (W0 m ρ c)
theorem at3_arg3 : W3 m ρ c (Proc.devRef .tc main_arg3) = (m ((c.tc : Thread nD τ).loc main_arg3)) := K0_keep_arg3 (W0 m ρ c)
theorem at3_arg4 : W3 m ρ c (Proc.devRef .tc main_arg4) = (m ((c.tc : Thread nD τ).loc main_arg4)) := K0_keep_arg4 (W0 m ρ c)
theorem at3_arg5 : W3 m ρ c (Proc.devRef .tc main_arg5) = (m ((c.tc : Thread nD τ).loc main_arg5)) := K0_keep_arg5 (W0 m ρ c)

/-! ## After the first region -/

theorem at4_out : W4 m ρ c (Proc.devRef .tc main_v30) = Cert.ReferenceIdeal.Spec.mix1 (F := Ideal) (m ((c.tc : Thread nD τ).loc main_arg0)) (m ((c.tc : Thread nD τ).loc main_arg2)) :=
  (W4_arr m ρ c 2).trans ((final0 (V3 m ρ) c).trans
    ((congrArg₂ (rowsTimes (M := 100000) (K := 512) (N := 16)) (at3_arg0 m ρ c) (at3_arg2 m ρ c)).trans (Cert.ReferenceIdeal.Bridge.mix1_eq _ _).symm))

/-! ## At the second region's entry -/

theorem at5_src : W5 m ρ c (Proc.devRef .tc main_v3) = Cert.ReferenceIdeal.Spec.src (F := Ideal) (m ((c.tc : Thread nD τ).loc main_arg1)) :=
  (K1_keep_v3 (W4 m ρ c)).trans ((W4_of_ne m ρ c main_v3 (by decide)).trans (at3_src m ρ c))
theorem at5_dst : W5 m ρ c (Proc.devRef .tc main_v6) = Cert.ReferenceIdeal.Spec.dst (F := Ideal) (m ((c.tc : Thread nD τ).loc main_arg1)) :=
  (K1_keep_v6 (W4 m ρ c)).trans ((W4_of_ne m ρ c main_v6 (by decide)).trans (at3_dst m ρ c))
theorem at5_weight : W5 m ρ c (Proc.devRef .tc main_v29) = Cert.ReferenceIdeal.Spec.weight (F := Ideal) (m ((c.tc : Thread nD τ).loc main_arg1)) :=
  (K1_keep_v29 (W4 m ρ c)).trans ((W4_of_ne m ρ c main_v29 (by decide)).trans (at3_weight m ρ c))
theorem at5_arg3 : W5 m ρ c (Proc.devRef .tc main_arg3) = (m ((c.tc : Thread nD τ).loc main_arg3)) :=
  (K1_keep_arg3 (W4 m ρ c)).trans ((W4_of_ne m ρ c main_arg3 (by decide)).trans (at3_arg3 m ρ c))
theorem at5_arg4 : W5 m ρ c (Proc.devRef .tc main_arg4) = (m ((c.tc : Thread nD τ).loc main_arg4)) :=
  (K1_keep_arg4 (W4 m ρ c)).trans ((W4_of_ne m ρ c main_arg4 (by decide)).trans (at3_arg4 m ρ c))
theorem at5_arg5 : W5 m ρ c (Proc.devRef .tc main_arg5) = (m ((c.tc : Thread nD τ).loc main_arg5)) :=
  (K1_keep_arg5 (W4 m ρ c)).trans ((W4_of_ne m ρ c main_arg5 (by decide)).trans (at3_arg5 m ρ c))

theorem at5_out : W5 m ρ c (Proc.devRef .tc main_v43) = Cert.ReferenceIdeal.Spec.spread16 (F := Ideal) (Cert.ReferenceIdeal.Spec.mix1 (F := Ideal) (m ((c.tc : Thread nD τ).loc main_arg0)) (m ((c.tc : Thread nD τ).loc main_arg2))) (m ((c.tc : Thread nD τ).loc main_arg1)) :=
  (K1_out (W4 m ρ c) (m ((c.tc : Thread nD τ).loc main_arg1))
    ((W4_of_ne m ρ c main_v3 (by decide)).trans (at3_src m ρ c))
    ((W4_of_ne m ρ c main_v6 (by decide)).trans (at3_dst m ρ c))
    ((W4_of_ne m ρ c main_v29 (by decide)).trans (at3_weight m ρ c))).trans
  (congrArg (fun h => Cert.ReferenceIdeal.Spec.spread16 (F := Ideal) h (m ((c.tc : Thread nD τ).loc main_arg1))) (at4_out m ρ c))

/-! ## After the second region -/

theorem at6_out : W6 m ρ c (Proc.devRef .tc main_v44) = Cert.ReferenceIdeal.Spec.mix2 (F := Ideal) (Cert.ReferenceIdeal.Spec.hidden (F := Ideal)
      (Cert.ReferenceIdeal.Spec.spread16 (F := Ideal) (Cert.ReferenceIdeal.Spec.mix1 (F := Ideal) (m ((c.tc : Thread nD τ).loc main_arg0)) (m ((c.tc : Thread nD τ).loc main_arg2))) (m ((c.tc : Thread nD τ).loc main_arg1))) (m ((c.tc : Thread nD τ).loc main_arg3))) (m ((c.tc : Thread nD τ).loc main_arg4)) :=
  (W6_arr m ρ c 3).trans ((final1 (V5 m ρ) c).trans
    ((congrArg₂ (rowsTimes (M := 100000) (K := 16) (N := 7))
        (congrArg₂ (flooredPlusRow (M := 100000) (K := 16) floor0) (at5_out m ρ c) (at5_arg3 m ρ c)) (at5_arg4 m ρ c)).trans
      ((congrArg (fun h => rowsTimes (M := 100000) (K := 16) (N := 7) h (m ((c.tc : Thread nD τ).loc main_arg4))) (Cert.ReferenceIdeal.Bridge.hidden_eq _ _).symm).trans
        (Cert.ReferenceIdeal.Bridge.mix2_eq _ _).symm)))

/-! ## At the third region's entry -/

theorem at7_arg5 : W7 m ρ c (Proc.devRef .tc main_arg5) = (m ((c.tc : Thread nD τ).loc main_arg5)) :=
  (K2_keep_arg5 (W6 m ρ c)).trans ((W6_of_ne m ρ c main_arg5 (by decide)).trans (at5_arg5 m ρ c))

theorem at7_out : W7 m ρ c (Proc.devRef .tc main_v57) = Cert.ReferenceIdeal.Spec.spread7 (F := Ideal) (Cert.ReferenceIdeal.Spec.mix2 (F := Ideal) (Cert.ReferenceIdeal.Spec.hidden (F := Ideal)
      (Cert.ReferenceIdeal.Spec.spread16 (F := Ideal) (Cert.ReferenceIdeal.Spec.mix1 (F := Ideal) (m ((c.tc : Thread nD τ).loc main_arg0)) (m ((c.tc : Thread nD τ).loc main_arg2))) (m ((c.tc : Thread nD τ).loc main_arg1))) (m ((c.tc : Thread nD τ).loc main_arg3))) (m ((c.tc : Thread nD τ).loc main_arg4))) (m ((c.tc : Thread nD τ).loc main_arg1)) :=
  (K2_out (W6 m ρ c) (m ((c.tc : Thread nD τ).loc main_arg1))
    ((W6_of_ne m ρ c main_v3 (by decide)).trans (at5_src m ρ c))
    ((W6_of_ne m ρ c main_v6 (by decide)).trans (at5_dst m ρ c))
    ((W6_of_ne m ρ c main_v29 (by decide)).trans (at5_weight m ρ c))).trans
  (congrArg (fun h => Cert.ReferenceIdeal.Spec.spread7 (F := Ideal) h (m ((c.tc : Thread nD τ).loc main_arg1))) (at6_out m ρ c))

/-! ## After the third region -/

/-- The result buffer at the last boundary holds the network's function of the arguments. -/
theorem at8_out : W8 m ρ c (Proc.devRef .tc main_v58) = Cert.ReferenceIdeal.Spec.result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W8_arr m ρ c 2).trans ((final2 (V7 m ρ) c).trans
    ((congrArg (logSoftmaxRows (M := 100000) (K := 7) bottom)
        (congrArg₂ (plusRow (M := 100000) (K := 7)) (at7_out m ρ c) (at7_arg5 m ρ c))).trans
      ((congrArg (logSoftmaxRows (M := 100000) (K := 7) bottom) (Cert.ReferenceIdeal.Bridge.logits_eq _ _).symm).trans
        ((Cert.ReferenceIdeal.Bridge.logSoftmax_eq _).symm.trans rfl))))

/-- Every weakly fair execution of the program terminates, nothing faulting, with the result array at the network's
    function of the arguments and each argument array as launched. -/
theorem run_value : θ_run defs (onTc (τ := τ) (main (F := Ideal))) ⟨m, fun _ => 0, ρ⟩ (fun r => ∀ c : Dev nD,
      r.2.mem ((c.tc : Thread nD τ).loc main_v58) = Cert.ReferenceIdeal.Spec.result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (at8_out m ρ c), (h c).2⟩) (run_result m ρ)

end Cert.KernelIdeal.Hand

end
-- ==== Proof.RefOps.lean ====
/-
  The reference program as a line of host operations, and its run.

  The reference has no tiled region: its entry function is its host operations in order (a called function's operations
  standing where it is called). From any memory with zero counters every weakly fair execution terminates, nothing
  faulting, and every buffer ends at the fold of the operations' results from the launch contents.
-/
import proofs.«140936_j44255343018662_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The entry function's operations, in order. -/
abbrev ops : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)),
    binary main_arg0 main_arg2 main_v30 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x7_S100000x7_1_0_0_1_n_n none l r) : (⟨S100000x16, .f32⟩ : BufTy).Contents (Elt F) → (⟨S16x7, .f32⟩ : BufTy).Contents (Elt F) → (⟨S100000x7, .f32⟩ : BufTy).Contents (Elt F)),
    nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x7_S3300000x1_S3300000x7_1_0_n_n_0_1_17 x i) : (⟨S100000x7, .f32⟩ : BufTy).Contents (Elt F) → (⟨S3300000x1, .i32⟩ : BufTy).Contents (Elt F) → (⟨S3300000x7, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x7 ![0, 1] bcast_S3300000x1_S3300000x7_0_1 : (⟨S3300000x1, .f32⟩ : BufTy).Contents (Elt F) → (⟨S3300000x7, .f32⟩ : BufTy).Contents (Elt F)),
    binary main_v55 main_v57 main_v58 (mulf : (⟨S3300000x7, .f32⟩ : BufTy).Contents (Elt F) → (⟨S3300000x7, .f32⟩ : BufTy).Contents (Elt F) → (⟨S3300000x7, .f32⟩ : BufTy).Contents (Elt F)),
    nullary main_cst_11 (constant S_ .f32 0x00000000#32),
    unary main_cst_11 main_v59 (broadcastInDim S100000x7 ![] bcast_S_S100000x7 : (⟨S_, .f32⟩ : BufTy).Contents (Elt F) → (⟨S100000x7, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x7_S3300000x1_S3300000x7_1_0_0_1 x i u) : (⟨S100000x7, .f32⟩ : BufTy).Contents (Elt F) → (⟨S3300000x1, .i32⟩ : BufTy).Contents (Elt F) → (⟨S3300000x7, .f32⟩ : BufTy).Contents (Elt F) → (⟨S100000x7, .f32⟩ : BufTy).Contents (Elt F)),
    unary main_arg5 main_v62 (broadcastInDim S1x7 ![1] bcast_S7_S1x7_1 : (⟨S7, .f32⟩ : BufTy).Contents (Elt F) → (⟨S1x7, .f32⟩ : BufTy).Contents (Elt F)),
    unary main_v62 main_v63 (broadcastInDim S100000x7 ![0, 1] bcast_S1x7_S100000x7_0_1 : (⟨S1x7, .f32⟩ : BufTy).Contents (Elt F) → (⟨S100000x7, .f32⟩ : BufTy).Contents (Elt F)),
    binary main_v61 main_v63 main_v64 (addf : (⟨S100000x7, .f32⟩ : BufTy).Contents (Elt F) → (⟨S100000x7, .f32⟩ : BufTy).Contents (Elt F) → (⟨S100000x7, .f32⟩ : BufTy).Contents (Elt F)),
    TRef.nullary (TRef.of (T := ⟨S_, .f32⟩) main_call2_cst) (constant S_ .f32 0xFF800000#32),
    TRef.binary (TRef.of (T := ⟨S100000x7, .f32⟩) main_v64) (TRef.of (T := ⟨S_, .f32⟩) main_call2_cst) (TRef.of (T := ⟨S100000, .f32⟩) main_call2_v0) (fun x v => Host.reduce FloatOps.maximumf x v reducesTo_S100000x7_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x7, .f32⟩) main_call2_v4) (broadcastInDim S100000x7 ![0, 1] bcast_S100000x1_S100000x7_0_1),
    TRef.binary (TRef.of (T := ⟨S100000x7, .f32⟩) main_v64) (TRef.of (T := ⟨S100000x7, .f32⟩) main_call2_v4) (TRef.of (T := ⟨S100000x7, .f32⟩) main_call2_v5) subf,
    TRef.unary (TRef.of (T := ⟨S100000x7, .f32⟩) main_call2_v5) (TRef.of (T := ⟨S100000x7, .f32⟩) main_call2_v6) Host.exp,
    TRef.nullary (TRef.of (T := ⟨S_, .f32⟩) main_call2_cst_1) (constant S_ .f32 0x00000000#32),
    TRef.binary (TRef.of (T := ⟨S100000x7, .f32⟩) main_call2_v6) (TRef.of (T := ⟨S_, .f32⟩) main_call2_cst_1) (TRef.of (T := ⟨S100000, .f32⟩) main_call2_v7) (fun x v => Host.reduceAdd x v reducesTo_S100000x7_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x7, .f32⟩) main_call2_v10) (broadcastInDim S100000x7 ![0, 1] bcast_S100000x1_S100000x7_0_1),
    TRef.binary (TRef.of (T := ⟨S100000x7, .f32⟩) main_call2_v5) (TRef.of (T := ⟨S100000x7, .f32⟩) main_call2_v10) (TRef.of (T := ⟨S100000x7, .f32⟩) main_v65) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
set_option maxHeartbeats 4000000 in
/-- Every buffer ends at the fold of the operations' results from the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.Hand

end
-- ==== Proof.LibTypedRef.lean ====
/-
  Contents moved to a typed reference's own buffer type and back.

  A typed reference carries the type T of the tensor value its buffer holds, with a proof that the buffer's declared type is
  T; contents at T are moved to contents of the buffer along that proof, and back. Moving there and back again is the
  identity, whatever the proof is: so an operation applied to contents that were put into its operands' buffers by these
  moves acts on the original contents.
-/
import Idealize.ShloMosaic.Lib.StableHlo

namespace Idealize.ShloMosaic.TypedRef

open Idealize.ShloMosaic Idealize.ShloMosaic.StableHlo

variable {sig : RefSig} {Val : EltTy → Type} {T : BufTy}

/-- Into the buffer's type and back. -/
theorem ofBuf_toBuf (x : TRef sig T) (w : T.Contents Val) : x.ofBuf (x.toBuf w) = w := by
  obtain ⟨r, h, d, u⟩ := x
  subst h
  rfl

/-- Out of the buffer's type and back into it. -/
theorem toBuf_ofBuf (x : TRef sig T) (v : x.ref.ty.Contents Val) : x.toBuf (x.ofBuf v) = v := by
  obtain ⟨r, h, d, u⟩ := x
  subst h
  rfl

end Idealize.ShloMosaic.TypedRef
-- ==== Proof.RefHost.lean ====
/-
  The reference's host operations, followed stretch by stretch into the network's function.

  The 98 operations fall into five consecutive stretches: the edge lists, degrees and edge weights (40 operations);
  the first product and its propagation (17); bias, floor and the second product (7); its propagation (16); bias and
  the log-softmax (18). A stretch started from any buffer contents writes its results as the corresponding function of
  Spec.lean applied to what it reads, and leaves every buffer it does not write as it was. Run one after the other from
  the launch contents they leave the result buffer at the network's function of the six arguments.
-/
import proofs.«140936_j44255343018662_1_alg».proof.Proof.RefOps
import proofs.«140936_j44255343018662_1_alg».proof.Proof.Spec
import proofs.«140936_j44255343018662_1_alg».proof.Proof.LibTypedRef

set_option maxRecDepth 16384

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Edge lists, degrees, edge weights. -/
abbrev opsA : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]
/-- The first product and its propagation. -/
abbrev opsB : List (HloOp τ sig (Elt F)) :=
  [ binary main_arg0 main_arg2 main_v30 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]
/-- Bias, floor, the second product. -/
abbrev opsC : List (HloOp τ sig (Elt F)) :=
  [ unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x7_S100000x7_1_0_0_1_n_n none l r) : (⟨S100000x16, .f32⟩ : BufTy).Contents (Elt F) → (⟨S16x7, .f32⟩ : BufTy).Contents (Elt F) → (⟨S100000x7, .f32⟩ : BufTy).Contents (Elt F)) ]
/-- The second propagation. -/
abbrev opsD : List (HloOp τ sig (Elt F)) :=
  [ nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x7_S3300000x1_S3300000x7_1_0_n_n_0_1_17 x i) : (⟨S100000x7, .f32⟩ : BufTy).Contents (Elt F) → (⟨S3300000x1, .i32⟩ : BufTy).Contents (Elt F) → (⟨S3300000x7, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x7 ![0, 1] bcast_S3300000x1_S3300000x7_0_1 : (⟨S3300000x1, .f32⟩ : BufTy).Contents (Elt F) → (⟨S3300000x7, .f32⟩ : BufTy).Contents (Elt F)),
    binary main_v55 main_v57 main_v58 (mulf : (⟨S3300000x7, .f32⟩ : BufTy).Contents (Elt F) → (⟨S3300000x7, .f32⟩ : BufTy).Contents (Elt F) → (⟨S3300000x7, .f32⟩ : BufTy).Contents (Elt F)),
    nullary main_cst_11 (constant S_ .f32 0x00000000#32),
    unary main_cst_11 main_v59 (broadcastInDim S100000x7 ![] bcast_S_S100000x7 : (⟨S_, .f32⟩ : BufTy).Contents (Elt F) → (⟨S100000x7, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x7_S3300000x1_S3300000x7_1_0_0_1 x i u) : (⟨S100000x7, .f32⟩ : BufTy).Contents (Elt F) → (⟨S3300000x1, .i32⟩ : BufTy).Contents (Elt F) → (⟨S3300000x7, .f32⟩ : BufTy).Contents (Elt F) → (⟨S100000x7, .f32⟩ : BufTy).Contents (Elt F)) ]
/-- Bias and the log-softmax. -/
abbrev opsE : List (HloOp τ sig (Elt F)) :=
  [ unary main_arg5 main_v62 (broadcastInDim S1x7 ![1] bcast_S7_S1x7_1 : (⟨S7, .f32⟩ : BufTy).Contents (Elt F) → (⟨S1x7, .f32⟩ : BufTy).Contents (Elt F)),
    unary main_v62 main_v63 (broadcastInDim S100000x7 ![0, 1] bcast_S1x7_S100000x7_0_1 : (⟨S1x7, .f32⟩ : BufTy).Contents (Elt F) → (⟨S100000x7, .f32⟩ : BufTy).Contents (Elt F)),
    binary main_v61 main_v63 main_v64 (addf : (⟨S100000x7, .f32⟩ : BufTy).Contents (Elt F) → (⟨S100000x7, .f32⟩ : BufTy).Contents (Elt F) → (⟨S100000x7, .f32⟩ : BufTy).Contents (Elt F)),
    TRef.nullary (TRef.of (T := ⟨S_, .f32⟩) main_call2_cst) (constant S_ .f32 0xFF800000#32),
    TRef.binary (TRef.of (T := ⟨S100000x7, .f32⟩) main_v64) (TRef.of (T := ⟨S_, .f32⟩) main_call2_cst) (TRef.of (T := ⟨S100000, .f32⟩) main_call2_v0) (fun x v => Host.reduce FloatOps.maximumf x v reducesTo_S100000x7_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x7, .f32⟩) main_call2_v4) (broadcastInDim S100000x7 ![0, 1] bcast_S100000x1_S100000x7_0_1),
    TRef.binary (TRef.of (T := ⟨S100000x7, .f32⟩) main_v64) (TRef.of (T := ⟨S100000x7, .f32⟩) main_call2_v4) (TRef.of (T := ⟨S100000x7, .f32⟩) main_call2_v5) subf,
    TRef.unary (TRef.of (T := ⟨S100000x7, .f32⟩) main_call2_v5) (TRef.of (T := ⟨S100000x7, .f32⟩) main_call2_v6) Host.exp,
    TRef.nullary (TRef.of (T := ⟨S_, .f32⟩) main_call2_cst_1) (constant S_ .f32 0x00000000#32),
    TRef.binary (TRef.of (T := ⟨S100000x7, .f32⟩) main_call2_v6) (TRef.of (T := ⟨S_, .f32⟩) main_call2_cst_1) (TRef.of (T := ⟨S100000, .f32⟩) main_call2_v7) (fun x v => Host.reduceAdd x v reducesTo_S100000x7_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x7, .f32⟩) main_call2_v10) (broadcastInDim S100000x7 ![0, 1] bcast_S100000x1_S100000x7_0_1),
    TRef.binary (TRef.of (T := ⟨S100000x7, .f32⟩) main_call2_v5) (TRef.of (T := ⟨S100000x7, .f32⟩) main_call2_v10) (TRef.of (T := ⟨S100000x7, .f32⟩) main_v65) subf ]

set_option maxRecDepth 8192 in
theorem ops_eq : (ops : List (HloOp τ sig (Elt F))) = opsA ++ (opsB ++ (opsC ++ (opsD ++ opsE))) := rfl

/-- Two stretches run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The first stretch -/

theorem A_src (V : Valuation τ sig (Elt F)) : after opsA V (Proc.devRef .tc main_v3) = Spec.src (F := F) (V (Proc.devRef .tc main_arg1)) := by
  after_results
  rfl
theorem A_dst (V : Valuation τ sig (Elt F)) : after opsA V (Proc.devRef .tc main_v6) = Spec.dst (F := F) (V (Proc.devRef .tc main_arg1)) := by
  after_results
  rfl
set_option maxHeartbeats 8000000 in
theorem A_weight (V : Valuation τ sig (Elt F)) : after opsA V (Proc.devRef .tc main_v29) = Spec.weight (F := F) (V (Proc.devRef .tc main_arg1)) := by
  after_results
  rfl
theorem A_keep_arg0 (V : Valuation τ sig (Elt F)) : after opsA V (Proc.devRef .tc main_arg0) = V (Proc.devRef .tc main_arg0) := by
  after_results
theorem A_keep_arg2 (V : Valuation τ sig (Elt F)) : after opsA V (Proc.devRef .tc main_arg2) = V (Proc.devRef .tc main_arg2) := by
  after_results
theorem A_keep_arg3 (V : Valuation τ sig (Elt F)) : after opsA V (Proc.devRef .tc main_arg3) = V (Proc.devRef .tc main_arg3) := by
  after_results
theorem A_keep_arg4 (V : Valuation τ sig (Elt F)) : after opsA V (Proc.devRef .tc main_arg4) = V (Proc.devRef .tc main_arg4) := by
  after_results
theorem A_keep_arg5 (V : Valuation τ sig (Elt F)) : after opsA V (Proc.devRef .tc main_arg5) = V (Proc.devRef .tc main_arg5) := by
  after_results

/-! ## The second stretch -/

set_option maxHeartbeats 8000000 in
theorem B_out (V : Valuation τ sig (Elt F)) (x1 : (⟨S2x3200000, .i32⟩ : BufTy).Contents (Elt F))
    (hs : V (Proc.devRef .tc main_v3) = Spec.src (F := F) x1) (hd : V (Proc.devRef .tc main_v6) = Spec.dst (F := F) x1) (hw : V (Proc.devRef .tc main_v29) = Spec.weight (F := F) x1) :
    after opsB V (Proc.devRef .tc main_v43) = Spec.spread16 (F := F) (Spec.mix1 (F := F) (V (Proc.devRef .tc main_arg0)) (V (Proc.devRef .tc main_arg2))) x1 := by
  after_results
  rw [hs, hd, hw]
  rfl
theorem B_keep_v3 (V : Valuation τ sig (Elt F)) : after opsB V (Proc.devRef .tc main_v3) = V (Proc.devRef .tc main_v3) := by
  after_results
theorem B_keep_v6 (V : Valuation τ sig (Elt F)) : after opsB V (Proc.devRef .tc main_v6) = V (Proc.devRef .tc main_v6) := by
  after_results
theorem B_keep_v29 (V : Valuation τ sig (Elt F)) : after opsB V (Proc.devRef .tc main_v29) = V (Proc.devRef .tc main_v29) := by
  after_results
theorem B_keep_arg3 (V : Valuation τ sig (Elt F)) : after opsB V (Proc.devRef .tc main_arg3) = V (Proc.devRef .tc main_arg3) := by
  after_results
theorem B_keep_arg4 (V : Valuation τ sig (Elt F)) : after opsB V (Proc.devRef .tc main_arg4) = V (Proc.devRef .tc main_arg4) := by
  after_results
theorem B_keep_arg5 (V : Valuation τ sig (Elt F)) : after opsB V (Proc.devRef .tc main_arg5) = V (Proc.devRef .tc main_arg5) := by
  after_results

/-! ## The third stretch -/

set_option maxHeartbeats 8000000 in
theorem C_out (V : Valuation τ sig (Elt F)) :
    after opsC V (Proc.devRef .tc main_v48) = Spec.mix2 (F := F) (Spec.hidden (F := F) (V (Proc.devRef .tc main_v43)) (V (Proc.devRef .tc main_arg3))) (V (Proc.devRef .tc main_arg4)) := by
  after_results
  rfl
theorem C_keep_v3 (V : Valuation τ sig (Elt F)) : after opsC V (Proc.devRef .tc main_v3) = V (Proc.devRef .tc main_v3) := by
  after_results
theorem C_keep_v6 (V : Valuation τ sig (Elt F)) : after opsC V (Proc.devRef .tc main_v6) = V (Proc.devRef .tc main_v6) := by
  after_results
theorem C_keep_v29 (V : Valuation τ sig (Elt F)) : after opsC V (Proc.devRef .tc main_v29) = V (Proc.devRef .tc main_v29) := by
  after_results
theorem C_keep_arg5 (V : Valuation τ sig (Elt F)) : after opsC V (Proc.devRef .tc main_arg5) = V (Proc.devRef .tc main_arg5) := by
  after_results

/-! ## The fourth stretch -/

set_option maxHeartbeats 8000000 in
theorem D_out (V : Valuation τ sig (Elt F)) (x1 : (⟨S2x3200000, .i32⟩ : BufTy).Contents (Elt F))
    (hs : V (Proc.devRef .tc main_v3) = Spec.src (F := F) x1) (hd : V (Proc.devRef .tc main_v6) = Spec.dst (F := F) x1) (hw : V (Proc.devRef .tc main_v29) = Spec.weight (F := F) x1) :
    after opsD V (Proc.devRef .tc main_v61) = Spec.spread7 (F := F) (V (Proc.devRef .tc main_v48)) x1 := by
  after_results
  rw [hs, hd, hw]
  rfl
theorem D_keep_arg5 (V : Valuation τ sig (Elt F)) : after opsD V (Proc.devRef .tc main_arg5) = V (Proc.devRef .tc main_arg5) := by
  after_results

/-! ## The fifth stretch -/

set_option maxHeartbeats 8000000 in
theorem E_out (V : Valuation τ sig (Elt F)) :
    after opsE V (Proc.devRef .tc main_v65) = Spec.logSoftmax (F := F) (Spec.logits (F := F) (V (Proc.devRef .tc main_v61)) (V (Proc.devRef .tc main_arg5))) := by
  after_results
  simp only [TypedRef.ofBuf_toBuf]
  rfl

/-! ## The five stretches in a row -/

set_option maxHeartbeats 8000000 in
/-- The result buffer after the whole line is the network's function of the arguments. -/
theorem result_eq (V : Valuation τ sig (Elt F)) :
    after ops V (Proc.devRef .tc main_v65) = Spec.result (F := F) (V (Proc.devRef .tc main_arg0)) (V (Proc.devRef .tc main_arg1)) (V (Proc.devRef .tc main_arg2))
      (V (Proc.devRef .tc main_arg3)) (V (Proc.devRef .tc main_arg4)) (V (Proc.devRef .tc main_arg5)) := by
  rw [ops_eq, after_append, after_append, after_append, after_append, E_out, D_keep_arg5, C_keep_arg5, B_keep_arg5, A_keep_arg5,
    D_out _ (V (Proc.devRef .tc main_arg1))
      ((C_keep_v3 _).trans ((B_keep_v3 _).trans (A_src V))) ((C_keep_v6 _).trans ((B_keep_v6 _).trans (A_dst V)))
      ((C_keep_v29 _).trans ((B_keep_v29 _).trans (A_weight V))),
    C_out, B_keep_arg3, B_keep_arg4, A_keep_arg3, A_keep_arg4,
    B_out _ (V (Proc.devRef .tc main_arg1)) (A_src V) (A_dst V) (A_weight V), A_keep_arg0, A_keep_arg2]
  rfl

end Cert.ReferenceIdeal.Hand

end
-- ==== Proof.RefFrame.lean ====
/-
  The reference's argument buffers after its line of operations: no operation writes an argument, so each holds what it
  held at launch.
-/
import proofs.«140936_j44255343018662_1_alg».proof.Proof.RefOps

set_option maxRecDepth 16384

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
theorem ops_keep_arg0 (V : Valuation τ sig (Elt F)) : after ops V (Proc.devRef .tc main_arg0) = V (Proc.devRef .tc main_arg0) := by
  after_results
set_option maxHeartbeats 8000000 in
theorem ops_keep_arg1 (V : Valuation τ sig (Elt F)) : after ops V (Proc.devRef .tc main_arg1) = V (Proc.devRef .tc main_arg1) := by
  after_results
set_option maxHeartbeats 8000000 in
theorem ops_keep_arg2 (V : Valuation τ sig (Elt F)) : after ops V (Proc.devRef .tc main_arg2) = V (Proc.devRef .tc main_arg2) := by
  after_results
set_option maxHeartbeats 8000000 in
theorem ops_keep_arg3 (V : Valuation τ sig (Elt F)) : after ops V (Proc.devRef .tc main_arg3) = V (Proc.devRef .tc main_arg3) := by
  after_results
set_option maxHeartbeats 8000000 in
theorem ops_keep_arg4 (V : Valuation τ sig (Elt F)) : after ops V (Proc.devRef .tc main_arg4) = V (Proc.devRef .tc main_arg4) := by
  after_results
set_option maxHeartbeats 8000000 in
theorem ops_keep_arg5 (V : Valuation τ sig (Elt F)) : after ops V (Proc.devRef .tc main_arg5) = V (Proc.devRef .tc main_arg5) := by
  after_results

end Cert.ReferenceIdeal.Hand

end
-- ==== Proof.lean ====
/-
  A two-layer graph convolution with a row-wise log-softmax: three tiled kernels among host gathers and scatter-adds,
  against the same network written with host operations only.

  Both programs build the same edge lists, degrees and edge weights with the same host operations, and propagate with
  the same gathers and scatter-adds. They differ in the dense parts: the kernel program computes x·W₁, then
  max(a + b₁, 0)·W₂, then the log-softmax of a + b₂, each in a grid of 25 blocks of 4000 rows, the products on the matrix
  unit from operands changed to a shorter float format; the reference uses the host's products, maximum, exponential,
  sums and logarithm. On the extended reals a change of format is the identity, a matrix-unit product into a zero
  accumulator and a host product are the same sum over the shared index, and a block of rows of a row-wise function is
  the function of the block's rows; so both programs end with the same function of the six arguments (Spec.lean), entry
  by entry. No law that needs finiteness is used: the precondition is never opened.

  The frames of the two kernel programs are the generated ones; the reference has no kernel, and its frame is its run
  with the result dropped. The idealized kernel program is the printed program read at the extended reals: nothing to
  preserve.
-/
import proofs.«140936_j44255343018662_1_alg».proof.Defs
import proofs.«140936_j44255343018662_1_alg».proof.Proof.Gen.Kernel
import proofs.«140936_j44255343018662_1_alg».proof.Proof.Gen.Kernel.Frame
import proofs.«140936_j44255343018662_1_alg».proof.Proof.Gen.KernelIdeal
import proofs.«140936_j44255343018662_1_alg».proof.Proof.Gen.KernelIdeal.Frame
import proofs.«140936_j44255343018662_1_alg».proof.Proof.Gen.ReferenceIdeal
import proofs.«140936_j44255343018662_1_alg».proof.Proof.Gen.Pre_finite_inputs
import proofs.«140936_j44255343018662_1_alg».proof.Proof.KernelValue
import proofs.«140936_j44255343018662_1_alg».proof.Proof.RefHost
import proofs.«140936_j44255343018662_1_alg».proof.Proof.RefFrame

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs, and no operation of it writes an argument. -/
theorem frame_reference : Cert.frame_ReferenceIdeal := fun m ρ _ =>
  (θ_run Cert.ReferenceIdeal.defs _ _).mono (fun r h c =>
    ⟨(h c Cert.ReferenceIdeal.main_arg0).trans (Cert.ReferenceIdeal.Hand.ops_keep_arg0 _),
     (h c Cert.ReferenceIdeal.main_arg1).trans (Cert.ReferenceIdeal.Hand.ops_keep_arg1 _),
     (h c Cert.ReferenceIdeal.main_arg2).trans (Cert.ReferenceIdeal.Hand.ops_keep_arg2 _),
     (h c Cert.ReferenceIdeal.main_arg3).trans (Cert.ReferenceIdeal.Hand.ops_keep_arg3 _),
     (h c Cert.ReferenceIdeal.main_arg4).trans (Cert.ReferenceIdeal.Hand.ops_keep_arg4 _),
     (h c Cert.ReferenceIdeal.main_arg5).trans (Cert.ReferenceIdeal.Hand.ops_keep_arg5 _)⟩)
    (Cert.ReferenceIdeal.Hand.run_all (F := Ideal) m ρ)

/-- Both programs end with the network's function of the arguments in their result arrays. -/
theorem algebraic : Cert.algebraic_KernelIdeal_ReferenceIdeal := by
  intro m ρ m' ρ' _ hagree
  refine ⟨fun c => Cert.ReferenceIdeal.Spec.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Hand.run_value m ρ, ?_⟩
  refine (θ_run Cert.ReferenceIdeal.defs _ _).mono (fun r h c => ?_) (Cert.ReferenceIdeal.Hand.run_all (F := Ideal) m' ρ')
  obtain ⟨e0, e1, e2, e3, e4, e5⟩ := hagree c
  refine ⟨(h c Cert.ReferenceIdeal.main_v65).trans ((Cert.ReferenceIdeal.Hand.result_eq _).trans ?_),
     (h c Cert.ReferenceIdeal.main_arg0).trans (Cert.ReferenceIdeal.Hand.ops_keep_arg0 _),
     (h c Cert.ReferenceIdeal.main_arg1).trans (Cert.ReferenceIdeal.Hand.ops_keep_arg1 _),
     (h c Cert.ReferenceIdeal.main_arg2).trans (Cert.ReferenceIdeal.Hand.ops_keep_arg2 _),
     (h c Cert.ReferenceIdeal.main_arg3).trans (Cert.ReferenceIdeal.Hand.ops_keep_arg3 _),
     (h c Cert.ReferenceIdeal.main_arg4).trans (Cert.ReferenceIdeal.Hand.ops_keep_arg4 _),
     (h c Cert.ReferenceIdeal.main_arg5).trans (Cert.ReferenceIdeal.Hand.ops_keep_arg5 _)⟩
  show Cert.ReferenceIdeal.Spec.result (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
  rw [e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
